-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S400000 : Shape := ⟨1, ![400000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S128x1 .f32) (main_arg11 : FVec F S1 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S100000x16 .f32) (main_arg1 : IVec S400000 32) (main_arg2 : IVec S400000 32) (main_arg3 : IVec S100000 32) (main_arg4 : FVec F S16x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg4
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S100000x16 : Shape := ⟨2, ![100000, 16]⟩
abbrev S400000 : Shape := ⟨1, ![400000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S400000x1 : Shape := ⟨2, ![400000, 1]⟩
abbrev S400000x16 : Shape := ⟨2, ![400000, 16]⟩
abbrev S100000x1 : Shape := ⟨2, ![100000, 1]⟩
abbrev S1x128 : Shape := ⟨2, ![1, 128]⟩
abbrev S100000x128 : Shape := ⟨2, ![100000, 128]⟩
abbrev S5000x16 : Shape := ⟨2, ![5000, 16]⟩
abbrev S5000x1 : Shape := ⟨2, ![5000, 1]⟩
abbrev S5000x128 : Shape := ⟨2, ![5000, 128]⟩
abbrev S400000x128 : Shape := ⟨2, ![400000, 128]⟩
abbrev S1x1 : Shape := ⟨2, ![1, 1]⟩
abbrev S2000x1 : Shape := ⟨2, ![2000, 1]⟩
abbrev S2000 : Shape := ⟨1, ![2000]⟩

abbrev nBuf : Space → Nat
  | .hbm => 158
  | .vmem => 25
  | .smem => 0
  | _ => 0

abbrev hbmTy0_0 (i : Nat) : BufTy := match i % 128 with
  | 0 => ⟨S100000x16, .f32⟩
  | 1 => ⟨S400000, .i32⟩
  | 2 => ⟨S400000, .i32⟩
  | 3 => ⟨S100000, .i32⟩
  | 4 => ⟨S16x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S_, .f32⟩
  | 13 => ⟨S400000, .f32⟩
  | 14 => ⟨S_, .f32⟩
  | 15 => ⟨S100000, .f32⟩
  | 16 => ⟨S400000x1, .i32⟩
  | 17 => ⟨S100000, .f32⟩
  | 18 => ⟨S_, .f32⟩
  | 19 => ⟨S100000, .f32⟩
  | 20 => ⟨S400000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x16, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000, .f32⟩
  | 48 => ⟨S400000x1, .f32⟩
  | 49 => ⟨S400000x16, .f32⟩
  | 50 => ⟨S400000x16, .f32⟩
  | 51 => ⟨S_, .f32⟩
  | 52 => ⟨S100000x16, .f32⟩
  | 53 => ⟨S400000x1, .i32⟩
  | 54 => ⟨S100000x16, .f32⟩
  | 55 => ⟨S100000x1, .f32⟩
  | 56 => ⟨S1x128, .f32⟩
  | 57 => ⟨S100000x128, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x128, .f32⟩
  | 67 => ⟨S_, .i32⟩
  | 68 => ⟨S400000, .i32⟩
  | 69 => ⟨S400000, .i1⟩
  | 70 => ⟨S_, .i32⟩
  | 71 => ⟨S400000, .i32⟩
  | 72 => ⟨S400000, .i32⟩
  | 73 => ⟨S400000, .i32⟩
  | 74 => ⟨S400000x1, .i32⟩
  | 75 => ⟨S400000, .f32⟩
  | 76 => ⟨S400000x1, .f32⟩
  | 77 => ⟨S400000x128, .f32⟩
  | 78 => ⟨S400000x128, .f32⟩
  | 79 => ⟨S_, .f32⟩
  | 80 => ⟨S100000x128, .f32⟩
  | 81 => ⟨S400000x1, .i32⟩
  | 82 => ⟨S100000x128, .f32⟩
  | 83 => ⟨S100000x1, .f32⟩
  | 84 => ⟨S1x128, .f32⟩
  | 85 => ⟨S100000x128, .f32⟩
  | 86 => ⟨S_, .i32⟩
  | 87 => ⟨S400000, .i32⟩
  | 88 => ⟨S400000, .i1⟩
  | 89 => ⟨S_, .i32⟩
  | 90 => ⟨S400000, .i32⟩
  | 91 => ⟨S400000, .i32⟩
  | 92 => ⟨S400000, .i32⟩
  | 93 => ⟨S400000x1, .i32⟩
  | 94 => ⟨S400000x128, .f32⟩
  | 95 => ⟨S_, .i32⟩
  | 96 => ⟨S400000, .i32⟩
  | 97 => ⟨S400000, .i1⟩
  | 98 => ⟨S_, .i32⟩
  | 99 => ⟨S400000, .i32⟩
  | 100 => ⟨S400000, .i32⟩
  | 101 => ⟨S400000, .i32⟩
  | 102 => ⟨S400000x1, .i32⟩
  | 103 => ⟨S400000, .f32⟩
  | 104 => ⟨S400000x1, .f32⟩
  | 105 => ⟨S400000x128, .f32⟩
  | 106 => ⟨S400000x128, .f32⟩
  | 107 => ⟨S_, .f32⟩
  | 108 => ⟨S100000x128, .f32⟩
  | 109 => ⟨S400000x1, .i32⟩
  | 110 => ⟨S100000x128, .f32⟩
  | 111 => ⟨S100000x1, .f32⟩
  | 112 => ⟨S1x128, .f32⟩
  | 113 => ⟨S100000x1, .f32⟩
  | 114 => ⟨S_, .i32⟩
  | 115 => ⟨S400000, .i32⟩
  | 116 => ⟨S400000, .i1⟩
  | 117 => ⟨S_, .i32⟩
  | 118 => ⟨S400000, .i32⟩
  | 119 => ⟨S400000, .i32⟩
  | 120 => ⟨S400000, .i32⟩
  | 121 => ⟨S400000x1, .i32⟩
  | 122 => ⟨S400000x1, .f32⟩
  | 123 => ⟨S_, .i32⟩
  | 124 => ⟨S400000, .i32⟩
  | 125 => ⟨S400000, .i1⟩
  | 126 => ⟨S_, .i32⟩
  | 127 => ⟨S400000, .i32⟩
  | _ => ⟨S100000x16, .f32⟩

abbrev hbmTy0_1 (i : Nat) : BufTy := match i % 128 with
  | 0 => ⟨S400000, .i32⟩
  | 1 => ⟨S400000, .i32⟩
  | 2 => ⟨S400000x1, .i32⟩
  | 3 => ⟨S400000, .f32⟩
  | 4 => ⟨S400000x1, .f32⟩
  | 5 => ⟨S400000x1, .f32⟩
  | 6 => ⟨S_, .f32⟩
  | 7 => ⟨S100000x1, .f32⟩
  | 8 => ⟨S400000x1, .i32⟩
  | 9 => ⟨S100000x1, .f32⟩
  | 10 => ⟨S100000x1, .f32⟩
  | 11 => ⟨S100000x1, .f32⟩
  | 12 => ⟨S1x1, .f32⟩
  | 13 => ⟨S100000x1, .f32⟩
  | 14 => ⟨S100000x1, .f32⟩
  | 15 => ⟨S_, .f32⟩
  | 16 => ⟨S2000x1, .f32⟩
  | 17 => ⟨S100000x1, .i32⟩
  | 18 => ⟨S2000x1, .f32⟩
  | 19 => ⟨S_, .f32⟩
  | 20 => ⟨S100000, .f32⟩
  | 21 => ⟨S_, .f32⟩
  | 22 => ⟨S2000, .f32⟩
  | 23 => ⟨S100000x1, .i32⟩
  | 24 => ⟨S2000, .f32⟩
  | 25 => ⟨S_, .f32⟩
  | 26 => ⟨S2000, .f32⟩
  | 27 => ⟨S2000, .f32⟩
  | 28 => ⟨S2000x1, .f32⟩
  | 29 => ⟨S2000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S5000x1, .f32⟩
  | .local _ .vmem, ⟨3, _⟩ => ⟨S5000x1, .f32⟩
  | .local _ .vmem, ⟨4, _⟩ => ⟨S16x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S1x128, .f32⟩
  | .local _ .vmem, ⟨22, _⟩ => ⟨S128x1, .f32⟩
  | .local _ .vmem, ⟨23, _⟩ => ⟨S5000x1, .f32⟩
  | .local _ .vmem, ⟨24, _⟩ => ⟨S5000x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_c_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_20 : Ref sig .tc := ⟨.hbm, 123, rfl⟩
abbrev main_v89 : Ref sig .tc := ⟨.hbm, 124, rfl⟩
abbrev main_v90 : Ref sig .tc := ⟨.hbm, 125, rfl⟩
abbrev main_c_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_22 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_23 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_24 : Ref sig .tc := ⟨.hbm, 147, rfl⟩
abbrev main_v109 : Ref sig .tc := ⟨.hbm, 148, rfl⟩
abbrev main_cst_25 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_26 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x16_0_1 : S400000x1.BroadcastsInDim S400000x16 (![0, 1] : Fin 2 → Fin S400000x16.rank)
  bcast_S_S100000x16 : S_.BroadcastsInDim S100000x16 (![] : Fin 0 → Fin S100000x16.rank)
  shapeCasts_S100000_S100000x1 : S100000.ShapeCasts S100000x1
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  bcast_S100000_S100000x1_0 : S100000.BroadcastsInDim S100000x1 (![0] : Fin 1 → Fin S100000x1.rank)
  shapeCasts_S1_S1x1 : S1.ShapeCasts S1x1
  bcast_S1x1_S100000x1_0_1 : S1x1.BroadcastsInDim S100000x1 (![0, 1] : Fin 2 → Fin S100000x1.rank)
  bcast_S_S2000x1 : S_.BroadcastsInDim S2000x1 (![] : Fin 0 → Fin S2000x1.rank)
  bcast_S_S2000 : S_.BroadcastsInDim S2000 (![] : Fin 0 → Fin S2000.rank)
  bcast_S2000_S2000x1_0 : S2000.BroadcastsInDim S2000x1 (![0] : Fin 1 → Fin S2000x1.rank)
  scatter_S100000_S400000x1_S400000_n_0_0_1_wf : ScatterDims.WF S100000 S400000x1 S400000 [] [0] [0] 1
  gather_S100000x16_S400000x1_S400000x16_1_0_n_n_0_1_116_wf : GatherDims.WF S100000x16 S400000x1 S400000x16 [1] [0] [] [0] [] 1 ![1, 16]
  gather_S100000_S400000x1_S400000_n_0_n_n_0_1_1_wf : GatherDims.WF S100000 S400000x1 S400000 [] [0] [] [0] [] 1 ![1]
  scatter_S100000x16_S400000x1_S400000x16_1_0_0_1_wf : ScatterDims.WF S100000x16 S400000x1 S400000x16 [1] [0] [0] 1
  dot_S5000x16_S16x128_S5000x128_1_0_0_1_n_n_wf : DotDims.WF S5000x16 S16x128 S5000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  gather_S100000x1_S400000x1_S400000x1_1_0_n_n_0_1_11_wf : GatherDims.WF S100000x1 S400000x1 S400000x1 [1] [0] [] [0] [] 1 ![1, 1]
  scatter_S100000x1_S400000x1_S400000x1_1_0_0_1_wf : ScatterDims.WF S100000x1 S400000x1 S400000x1 [1] [0] [0] 1
  scatter_S2000x1_S100000x1_S100000x1_1_0_0_1_wf : ScatterDims.WF S2000x1 S100000x1 S100000x1 [1] [0] [0] 1
  scatter_S2000_S100000x1_S100000_n_0_0_1_wf : ScatterDims.WF S2000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .f32 = 32 ∨ (Rect.block (s := S128x1) S128x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x16_S400000x1_S400000x16_1_0_n_n_0_1_116 : GatherDims S100000x16 S400000x1 S400000x16 where
  offsetDims := [1]
  collapsedSliceDims := [0]
  operandBatchingDims := []
  startIndicesBatchingDims := []
  startIndexMap := [0]
  indexVectorDim := 1
  sliceSizes := ![1, 16]
  wf := gather_S100000x16_S400000x1_S400000x16_1_0_n_n_0_1_116_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def scatter_S100000x16_S400000x1_S400000x16_1_0_0_1 : ScatterDims S100000x16 S400000x1 S400000x16 where
  updateWindowDims := [1]
  insertedWindowDims := [0]
  scatterDimsToOperandDims := [0]
  indexVectorDim := 1
  wf := scatter_S100000x16_S400000x1_S400000x16_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S400000x1_S400000x1_1_0_n_n_0_1_11 : GatherDims S100000x1 S400000x1 S400000x1 where
  offsetDims := [1]
  collapsedSliceDims := [0]
  operandBatchingDims := []
  startIndicesBatchingDims := []
  startIndexMap := [0]
  indexVectorDim := 1
  sliceSizes := ![1, 1]
  wf := gather_S100000x1_S400000x1_S400000x1_1_0_n_n_0_1_11_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf

abbrev win0_0 : Pipeline.Window sig grid0 :=
  Pipeline.Window.ofSpec (Memref.whole main_v32) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v55) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v78) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v79) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v81) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x16 : Shape := ⟨2, ![100000, 16]⟩
abbrev S400000 : Shape := ⟨1, ![400000]⟩
abbrev S100000 : Shape := ⟨1, ![100000]⟩
abbrev S16x128 : Shape := ⟨2, ![16, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S400000x1 : Shape := ⟨2, ![400000, 1]⟩
abbrev S400000x16 : Shape := ⟨2, ![400000, 16]⟩
abbrev S100000x1 : Shape := ⟨2, ![100000, 1]⟩
abbrev S100000x128 : Shape := ⟨2, ![100000, 128]⟩
abbrev S1x128 : Shape := ⟨2, ![1, 128]⟩
abbrev S400000x128 : Shape := ⟨2, ![400000, 128]⟩
abbrev S1x1 : Shape := ⟨2, ![1, 1]⟩
abbrev S2000x1 : Shape := ⟨2, ![2000, 1]⟩
abbrev S2000 : Shape := ⟨1, ![2000]⟩

abbrev nBuf : Space → Nat
  | .hbm => 182
  | .vmem => 0
  | .smem => 0
  | _ => 0

abbrev hbmTy0_0 (i : Nat) : BufTy := match i % 128 with
  | 0 => ⟨S100000x16, .f32⟩
  | 1 => ⟨S400000, .i32⟩
  | 2 => ⟨S400000, .i32⟩
  | 3 => ⟨S100000, .i32⟩
  | 4 => ⟨S16x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S_, .f32⟩
  | 13 => ⟨S400000, .f32⟩
  | 14 => ⟨S_, .f32⟩
  | 15 => ⟨S100000, .f32⟩
  | 16 => ⟨S400000x1, .i32⟩
  | 17 => ⟨S100000, .f32⟩
  | 18 => ⟨S_, .f32⟩
  | 19 => ⟨S100000, .f32⟩
  | 20 => ⟨S400000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000, .f32⟩
  | 30 => ⟨S_, .i32⟩
  | 31 => ⟨S400000, .i32⟩
  | 32 => ⟨S400000, .i1⟩
  | 33 => ⟨S_, .i32⟩
  | 34 => ⟨S400000, .i32⟩
  | 35 => ⟨S400000, .i32⟩
  | 36 => ⟨S400000, .i32⟩
  | 37 => ⟨S400000x1, .i32⟩
  | 38 => ⟨S400000x16, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000, .f32⟩
  | 48 => ⟨S400000x1, .f32⟩
  | 49 => ⟨S400000x16, .f32⟩
  | 50 => ⟨S400000x16, .f32⟩
  | 51 => ⟨S_, .f32⟩
  | 52 => ⟨S100000x16, .f32⟩
  | 53 => ⟨S400000x1, .i32⟩
  | 54 => ⟨S100000x16, .f32⟩
  | 55 => ⟨S100000x1, .f32⟩
  | 56 => ⟨S100000x16, .f32⟩
  | 57 => ⟨S100000x16, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .i32⟩
  | 66 => ⟨S400000, .i32⟩
  | 67 => ⟨S400000, .i1⟩
  | 68 => ⟨S_, .i32⟩
  | 69 => ⟨S400000, .i32⟩
  | 70 => ⟨S400000, .i32⟩
  | 71 => ⟨S400000, .i32⟩
  | 72 => ⟨S400000x1, .i32⟩
  | 73 => ⟨S400000x128, .f32⟩
  | 74 => ⟨S_, .i32⟩
  | 75 => ⟨S400000, .i32⟩
  | 76 => ⟨S400000, .i1⟩
  | 77 => ⟨S_, .i32⟩
  | 78 => ⟨S400000, .i32⟩
  | 79 => ⟨S400000, .i32⟩
  | 80 => ⟨S400000, .i32⟩
  | 81 => ⟨S400000x1, .i32⟩
  | 82 => ⟨S400000, .f32⟩
  | 83 => ⟨S400000x1, .f32⟩
  | 84 => ⟨S400000x128, .f32⟩
  | 85 => ⟨S400000x128, .f32⟩
  | 86 => ⟨S_, .f32⟩
  | 87 => ⟨S100000x128, .f32⟩
  | 88 => ⟨S400000x1, .i32⟩
  | 89 => ⟨S100000x128, .f32⟩
  | 90 => ⟨S100000x1, .f32⟩
  | 91 => ⟨S100000x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S400000x128, .f32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000, .f32⟩
  | 118 => ⟨S400000x1, .f32⟩
  | 119 => ⟨S400000x128, .f32⟩
  | 120 => ⟨S400000x128, .f32⟩
  | 121 => ⟨S_, .f32⟩
  | 122 => ⟨S100000x128, .f32⟩
  | 123 => ⟨S400000x1, .i32⟩
  | 124 => ⟨S100000x128, .f32⟩
  | 125 => ⟨S100000x1, .f32⟩
  | 126 => ⟨S100000x128, .f32⟩
  | 127 => ⟨S100000x128, .f32⟩
  | _ => ⟨S100000x16, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S400000x128, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000, .f32⟩
  | 25 => ⟨S400000x1, .f32⟩
  | 26 => ⟨S400000x128, .f32⟩
  | 27 => ⟨S400000x128, .f32⟩
  | 28 => ⟨S_, .f32⟩
  | 29 => ⟨S100000x128, .f32⟩
  | 30 => ⟨S400000x1, .i32⟩
  | 31 => ⟨S100000x128, .f32⟩
  | 32 => ⟨S100000x1, .f32⟩
  | 33 => ⟨S100000x128, .f32⟩
  | 34 => ⟨S100000x128, .f32⟩
  | 35 => ⟨S100000x1, .f32⟩
  | 36 => ⟨S1x1, .f32⟩
  | 37 => ⟨S100000x1, .f32⟩
  | 38 => ⟨S100000x1, .f32⟩
  | 39 => ⟨S_, .f32⟩
  | 40 => ⟨S2000x1, .f32⟩
  | 41 => ⟨S100000x1, .i32⟩
  | 42 => ⟨S2000x1, .f32⟩
  | 43 => ⟨S_, .f32⟩
  | 44 => ⟨S100000, .f32⟩
  | 45 => ⟨S_, .f32⟩
  | 46 => ⟨S2000, .f32⟩
  | 47 => ⟨S100000x1, .i32⟩
  | 48 => ⟨S2000, .f32⟩
  | 49 => ⟨S_, .f32⟩
  | 50 => ⟨S2000, .f32⟩
  | 51 => ⟨S2000, .f32⟩
  | 52 => ⟨S2000x1, .f32⟩
  | 53 => ⟨S2000x1, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_5 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call0_cst : Ref sig .tc := ⟨.hbm, 62, rfl⟩
abbrev main_call0_v0 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call1_cst : Ref sig .tc := ⟨.hbm, 97, rfl⟩
abbrev main_call1_v0 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_15 : Ref sig .tc := ⟨.hbm, 109, rfl⟩
abbrev main_v76 : Ref sig .tc := ⟨.hbm, 110, rfl⟩
abbrev main_v77 : Ref sig .tc := ⟨.hbm, 111, rfl⟩
abbrev main_c_16 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_17 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_call2_cst : Ref sig .tc := ⟨.hbm, 132, rfl⟩
abbrev main_call2_v0 : Ref sig .tc := ⟨.hbm, 133, rfl⟩
abbrev main_v96 : Ref sig .tc := ⟨.hbm, 134, rfl⟩
abbrev main_c_18 : Ref sig .tc := ⟨.hbm, 135, rfl⟩
abbrev main_v97 : Ref sig .tc := ⟨.hbm, 136, rfl⟩
abbrev main_v98 : Ref sig .tc := ⟨.hbm, 137, rfl⟩
abbrev main_c_19 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_c_20 : Ref sig .tc := ⟨.hbm, 144, rfl⟩
abbrev main_v104 : Ref sig .tc := ⟨.hbm, 145, rfl⟩
abbrev main_v105 : Ref sig .tc := ⟨.hbm, 146, rfl⟩
abbrev main_c_21 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_22 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_23 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_24 : Ref sig .tc := ⟨.hbm, 171, rfl⟩
abbrev main_v127 : Ref sig .tc := ⟨.hbm, 172, rfl⟩
abbrev main_cst_25 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_26 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S400000x1_S400000x16_0_1 : S400000x1.BroadcastsInDim S400000x16 (![0, 1] : Fin 2 → Fin S400000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S400000x1_S400000x128_0_1 : S400000x1.BroadcastsInDim S400000x128 (![0, 1] : Fin 2 → Fin S400000x128.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S2000x1 : S_.BroadcastsInDim S2000x1 (![] : Fin 0 → Fin S2000x1.rank)
  bcast_S_S2000 : S_.BroadcastsInDim S2000 (![] : Fin 0 → Fin S2000.rank)
  bcast_S2000_S2000x1_0 : S2000.BroadcastsInDim S2000x1 (![0] : Fin 1 → Fin S2000x1.rank)
  scatter_S100000_S400000x1_S400000_n_0_0_1_wf : ScatterDims.WF S100000 S400000x1 S400000 [] [0] [0] 1
  gather_S100000x16_S400000x1_S400000x16_1_0_n_n_0_1_116_wf : GatherDims.WF S100000x16 S400000x1 S400000x16 [1] [0] [] [0] [] 1 ![1, 16]
  gather_S100000_S400000x1_S400000_n_0_n_n_0_1_1_wf : GatherDims.WF S100000 S400000x1 S400000 [] [0] [] [0] [] 1 ![1]
  scatter_S100000x16_S400000x1_S400000x16_1_0_0_1_wf : ScatterDims.WF S100000x16 S400000x1 S400000x16 [1] [0] [0] 1
  dot_S100000x16_S16x128_S100000x128_1_0_0_1_n_n_wf : DotDims.WF S100000x16 S16x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  scatter_S2000x1_S100000x1_S100000x1_1_0_0_1_wf : ScatterDims.WF S2000x1 S100000x1 S100000x1 [1] [0] [0] 1
  scatter_S2000_S100000x1_S100000_n_0_0_1_wf : ScatterDims.WF S2000 S100000x1 S100000 [] [0] [0] 1

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x16_S400000x1_S400000x16_1_0_n_n_0_1_116 : GatherDims S100000x16 S400000x1 S400000x16 where
  offsetDims := [1]
  collapsedSliceDims := [0]
  operandBatchingDims := []
  startIndicesBatchingDims := []
  startIndexMap := [0]
  indexVectorDim := 1
  sliceSizes := ![1, 16]
  wf := gather_S100000x16_S400000x1_S400000x16_1_0_n_n_0_1_116_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def scatter_S100000x16_S400000x1_S400000x16_1_0_0_1 : ScatterDims S100000x16 S400000x1 S400000x16 where
  updateWindowDims := [1]
  insertedWindowDims := [0]
  scatterDimsToOperandDims := [0]
  indexVectorDim := 1
  wf := scatter_S100000x16_S400000x1_S400000x16_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def scatter_S2000x1_S100000x1_S100000x1_1_0_0_1 : ScatterDims S2000x1 S100000x1 S100000x1 where
  updateWindowDims := [1]
  insertedWindowDims := [0]
  scatterDimsToOperandDims := [0]
  indexVectorDim := 1
  wf := scatter_S2000x1_S100000x1_S100000x1_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf

class Facts : Prop extends Facts₀ where

variable [Facts]
-- ==== Proof.KernelRun.lean ====
/-
  The idealized kernel's whole run with its RESULT named: every weakly fair execution of @main ends with the
  result buffer holding the fold of @main's host stretches and its three tiled regions over the launch memory,
  read at the result (`Gen.W7 m ρ c main_v116`), and with the twelve argument arrays as launched.  This is the
  frame run of the three-region program, keeping in its post the one more buffer the value claim speaks of.
-/
import proofs.«152917_j37847251812697_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last
    boundary's contents at the result, and the arguments are as launched. -/
theorem run : θ_run defs (onTc (τ := τ) (main (F := F))) ⟨m, fun _ => 0, ρ⟩ (fun r => ∀ c : Dev nD,
      r.2.mem ((c.tc : Thread nD τ).loc main_v116) = W7 m ρ c (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v116 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.RunValue

end
-- ==== Proof.Net.lean ====
/-
  The host side of the idealized kernel program, as functions of arrays.

  Around its three tiled stages the program runs on the host: the two degree vectors (a scatter-add of ones
  over the edges' sources, or destinations, clamped below at one, then the reciprocal square root: `nrm`);
  the edge aggregation `agg x = segment_sum (x[src] · ns[src]) dst` at row widths 16, 128 and 1 (a row gather
  through the sources — negative indices wrapped by the row count first, `wrapIdx` —, each gathered row scaled by
  its source's factor, and a scatter-add of the rows onto the destinations); the column and row forms of a
  vector the tiled stages take (`kcol`, `krow`); and, after the last stage, the scaling by the destination
  factor, the bias, and the per-graph mean (`pool`).
-/
import proofs.«152917_j37847251812697_2_alg».proof.KernelIdeal
import proofs.«152917_j37847251812697_2_alg».proof.Proof.Gen.KernelIdeal

noncomputable section

namespace Cert.Net

open Cert.KernelIdeal Cert.KernelIdeal.Facts₀ Idealize.ShloMosaic

variable {F : FTy → Type} [FloatOps F]

/-- An index vector as the one-column table a gather or a scatter reads. -/
def colIdx (s : (⟨S400000, .i32⟩ : BufTy).Contents (Elt F)) : (⟨S400000x1, .i32⟩ : BufTy).Contents (Elt F) :=
  broadcastInDim S400000x1 ![0] bcast_S400000_S400000x1_0 s

/-- The same with negative entries wrapped by the row count 100000 first. -/
def wrapIdx (s : (⟨S400000, .i32⟩ : BufTy).Contents (Elt F)) : (⟨S400000x1, .i32⟩ : BufTy).Contents (Elt F) :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 100000#32))) s)

/-- The degree factor of every node: `rsqrt (max (number of edges at the node) 1)`. -/
def nrm (s : (⟨S400000, .i32⟩ : BufTy).Contents (Elt F)) : (⟨S100000, .f32⟩ : BufTy).Contents (Elt F) :=
  Host.rsqrt (maximumf
    (Host.scatterAdd scatter_S100000_S400000x1_S400000_n_0_0_1
      (broadcastInDim S100000 ![] bcast_S_S100000 (constant S_ .f32 0x00000000#32))
      (colIdx (F := F) s)
      (broadcastInDim S400000 ![] bcast_S_S400000 (constant S_ .f32 0x3F800000#32)))
    (broadcastInDim S100000 ![] bcast_S_S100000 (constant S_ .f32 0x3F800000#32)))

/-- Every edge's factor: its source's degree factor. -/
def edgeW (src : (⟨S400000, .i32⟩ : BufTy).Contents (Elt F)) (ns : (⟨S100000, .f32⟩ : BufTy).Contents (Elt F)) :
    (⟨S400000, .f32⟩ : BufTy).Contents (Elt F) :=
  Host.gather gather_S100000_S400000x1_S400000_n_0_n_n_0_1_1 ns (wrapIdx (F := F) src)

/-- The edge aggregation of 16-wide rows. -/
def agg16 (src dst : (⟨S400000, .i32⟩ : BufTy).Contents (Elt F)) (ns : (⟨S100000, .f32⟩ : BufTy).Contents (Elt F))
    (x : (⟨S100000x16, .f32⟩ : BufTy).Contents (Elt F)) : (⟨S100000x16, .f32⟩ : BufTy).Contents (Elt F) :=
  Host.scatterAdd scatter_S100000x16_S400000x1_S400000x16_1_0_0_1
    (broadcastInDim S100000x16 ![] bcast_S_S100000x16 (constant S_ .f32 0x00000000#32))
    (colIdx (F := F) dst)
    (mulf (Host.gather gather_S100000x16_S400000x1_S400000x16_1_0_n_n_0_1_116 x (wrapIdx (F := F) src))
      (broadcastInDim S400000x16 ![0, 1] bcast_S400000x1_S400000x16_0_1
        (broadcastInDim S400000x1 ![0] bcast_S400000_S400000x1_0 (edgeW src ns))))

/-- The edge aggregation of 128-wide rows. -/
def agg128 (src dst : (⟨S400000, .i32⟩ : BufTy).Contents (Elt F)) (ns : (⟨S100000, .f32⟩ : BufTy).Contents (Elt F))
    (x : (⟨S100000x128, .f32⟩ : BufTy).Contents (Elt F)) : (⟨S100000x128, .f32⟩ : BufTy).Contents (Elt F) :=
  Host.scatterAdd scatter_S100000x128_S400000x1_S400000x128_1_0_0_1
    (broadcastInDim S100000x128 ![] bcast_S_S100000x128 (constant S_ .f32 0x00000000#32))
    (colIdx (F := F) dst)
    (mulf (Host.gather gather_S100000x128_S400000x1_S400000x128_1_0_n_n_0_1_1128 x (wrapIdx (F := F) src))
      (broadcastInDim S400000x128 ![0, 1] bcast_S400000x1_S400000x128_0_1
        (broadcastInDim S400000x1 ![0] bcast_S400000_S400000x1_0 (edgeW src ns))))

/-- The edge aggregation of one-wide rows. -/
def agg1 (src dst : (⟨S400000, .i32⟩ : BufTy).Contents (Elt F)) (ns : (⟨S100000, .f32⟩ : BufTy).Contents (Elt F))
    (z : (⟨S100000x1, .f32⟩ : BufTy).Contents (Elt F)) : (⟨S100000x1, .f32⟩ : BufTy).Contents (Elt F) :=
  Host.scatterAdd scatter_S100000x1_S400000x1_S400000x1_1_0_0_1
    (broadcastInDim S100000x1 ![] bcast_S_S100000x1 (constant S_ .f32 0x00000000#32))
    (colIdx (F := F) dst)
    (mulf (Host.gather gather_S100000x1_S400000x1_S400000x1_1_0_n_n_0_1_11 z (wrapIdx (F := F) src))
      (broadcastInDim S400000x1 ![0] bcast_S400000_S400000x1_0 (edgeW src ns)))

/-- A node vector as the one-column matrix a tiled stage takes. -/
def kcol (v : (⟨S100000, .f32⟩ : BufTy).Contents (Elt F)) : (⟨S100000x1, .f32⟩ : BufTy).Contents (Elt F) :=
  shapeCast S100000x1 v shapeCasts_S100000_S100000x1

/-- A bias vector as the one-row matrix a tiled stage takes. -/
def krow (b : (⟨S128, .f32⟩ : BufTy).Contents (Elt F)) : (⟨S1x128, .f32⟩ : BufTy).Contents (Elt F) :=
  shapeCast S1x128 b shapeCasts_S128_S1x128

/-- The per-graph mean of a one-wide node array: segment sums over the graph ids divided by the clamped counts. -/
def pool (gid : (⟨S100000, .i32⟩ : BufTy).Contents (Elt F)) (o : (⟨S100000x1, .f32⟩ : BufTy).Contents (Elt F)) :
    (⟨S2000x1, .f32⟩ : BufTy).Contents (Elt F) :=
  Host.divf
    (Host.scatterAdd scatter_S2000x1_S100000x1_S100000x1_1_0_0_1
      (broadcastInDim S2000x1 ![] bcast_S_S2000x1 (constant S_ .f32 0x00000000#32))
      (broadcastInDim S100000x1 ![0] bcast_S100000_S100000x1_0 gid) o)
    (broadcastInDim S2000x1 ![0] bcast_S2000_S2000x1_0
      (maximumf
        (Host.scatterAdd scatter_S2000_S100000x1_S100000_n_0_0_1
          (broadcastInDim S2000 ![] bcast_S_S2000 (constant S_ .f32 0x00000000#32))
          (broadcastInDim S100000x1 ![0] bcast_S100000_S100000x1_0 gid)
          (broadcastInDim S100000 ![] bcast_S_S100000 (constant S_ .f32 0x3F800000#32)))
        (broadcastInDim S2000 ![] bcast_S_S2000 (constant S_ .f32 0x3F800000#32))))

/-- What the kernel program does after its last tiled stage, up to the pooling: aggregate the one-wide rows,
    scale by the destination factor, add the bias. -/
def out4 (src dst : (⟨S400000, .i32⟩ : BufTy).Contents (Elt F)) (ns nd : (⟨S100000, .f32⟩ : BufTy).Contents (Elt F))
    (b4 : (⟨S1, .f32⟩ : BufTy).Contents (Elt F)) (z : (⟨S100000x1, .f32⟩ : BufTy).Contents (Elt F)) :
    (⟨S100000x1, .f32⟩ : BufTy).Contents (Elt F) :=
  addf (mulf (agg1 src dst ns z) (broadcastInDim S100000x1 ![0] bcast_S100000_S100000x1_0 nd))
    (broadcastInDim S100000x1 ![0, 1] bcast_S1x1_S100000x1_0_1 (shapeCast S1x1 b4 shapeCasts_S1_S1x1))

end Cert.Net

end
-- ==== Proof.Spec.lean ====
/-
  The two whole-array functions the three dense stages compute, index by index, on the extended reals.

  A graph-convolution layer first aggregates over edges (a gather, a scaling and a scatter-add, all on the
  host) and then applies a dense map to every node row.  The dense map is what the tiled stages compute:
  row `i` of the aggregate is scaled by the node's in-degree factor `nd i`, multiplied by the weight matrix,
  shifted by the bias row and clamped at zero (`dense`).  The last tiled stage also multiplies the clamped
  rows by a second weight matrix (`proj`), which is the fourth layer's weight applied BEFORE that layer's
  aggregation instead of after it.
-/
import Idealize.ShloMosaic.PureOps.Ideal
import Idealize.ShloMosaic.Lib.ValueIdx

noncomputable section

namespace Cert.Spec

open Idealize.ShloMosaic Idealize.ShloMosaic.ValueIdx

/-- Row `i`, column `j` of one dense stage: `max (∑ₖ (a i k · nd i) · W k j + b j) 0`. -/
def dense {N K M : ℕ} (a : (⟨2, ![N, K]⟩ : Shape).Idx → EReal) (nd : (⟨2, ![N, 1]⟩ : Shape).Idx → EReal)
    (W : (⟨2, ![K, M]⟩ : Shape).Idx → EReal) (b : (⟨2, ![1, M]⟩ : Shape).Idx → EReal) :
    (⟨2, ![N, M]⟩ : Shape).Idx → EReal :=
  fun i => max ((∑ k : Fin K, (a (ix2 (i 0) k) * nd (ix2 (i 0) (0 : Fin 1))) * W (ix2 k (i 1)))
    + b (ix2 (0 : Fin 1) (i 1))) 0

/-- Row `i`, column `j` of a plain product: `∑ₖ h i k · W k j`. -/
def proj {N K M : ℕ} (h : (⟨2, ![N, K]⟩ : Shape).Idx → EReal) (W : (⟨2, ![K, M]⟩ : Shape).Idx → EReal) :
    (⟨2, ![N, M]⟩ : Shape).Idx → EReal :=
  fun i => ∑ k : Fin K, h (ix2 (i 0) k) * W (ix2 k (i 1))

theorem dense_apply {N K M : ℕ} (a : (⟨2, ![N, K]⟩ : Shape).Idx → EReal) (nd : (⟨2, ![N, 1]⟩ : Shape).Idx → EReal)
    (W : (⟨2, ![K, M]⟩ : Shape).Idx → EReal) (b : (⟨2, ![1, M]⟩ : Shape).Idx → EReal) (p : Fin N) (q : Fin M) :
    dense a nd W b (ix2 p q) = max ((∑ k : Fin K, (a (ix2 p k) * nd (ix2 p (0 : Fin 1))) * W (ix2 k q))
      + b (ix2 (0 : Fin 1) q)) 0 := rfl

theorem proj_apply {N K M : ℕ} (h : (⟨2, ![N, K]⟩ : Shape).Idx → EReal) (W : (⟨2, ![K, M]⟩ : Shape).Idx → EReal)
    (p : Fin N) (q : Fin M) : proj h W (ix2 p q) = ∑ k : Fin K, h (ix2 p k) * W (ix2 k q) := rfl

end Cert.Spec

end
-- ==== Proof.KNet.lean ====
/-
  The idealized kernel program's result as ONE function of its twelve arguments, on the extended reals:
  three rounds of "aggregate over the edges, then the dense map", the last round's rows multiplied by the
  fourth weight column BEFORE the fourth aggregation, then the destination factor, the bias and the per-graph mean.
-/
import proofs.«152917_j37847251812697_2_alg».proof.Proof.Net
import proofs.«152917_j37847251812697_2_alg».proof.Proof.Spec

noncomputable section

namespace Cert.Net

open Cert.KernelIdeal Idealize.ShloMosaic

/-- The first layer's output: the dense map of the 16-wide aggregate of the features. -/
def y1 (x0 : (⟨S100000x16, .f32⟩ : BufTy).Contents (Elt Ideal)) (x1 x2 : (⟨S400000, .i32⟩ : BufTy).Contents (Elt Ideal))
    (x4 : (⟨S16x128, .f32⟩ : BufTy).Contents (Elt Ideal)) (x5 : (⟨S128, .f32⟩ : BufTy).Contents (Elt Ideal)) :
    (⟨S100000x128, .f32⟩ : BufTy).Contents (Elt Ideal) :=
  Cert.Spec.dense (N := 100000) (K := 16) (M := 128) (agg16 (F := Ideal) x1 x2 (nrm (F := Ideal) x1) x0)
    (kcol (F := Ideal) (nrm (F := Ideal) x2)) x4 (krow (F := Ideal) x5)

/-- A later layer's output from the previous layer's: the dense map of the 128-wide aggregate. -/
def ynext (x1 x2 : (⟨S400000, .i32⟩ : BufTy).Contents (Elt Ideal)) (y : (⟨S100000x128, .f32⟩ : BufTy).Contents (Elt Ideal))
    (W : (⟨S128x128, .f32⟩ : BufTy).Contents (Elt Ideal)) (b : (⟨S128, .f32⟩ : BufTy).Contents (Elt Ideal)) :
    (⟨S100000x128, .f32⟩ : BufTy).Contents (Elt Ideal) :=
  Cert.Spec.dense (N := 100000) (K := 128) (M := 128) (agg128 (F := Ideal) x1 x2 (nrm (F := Ideal) x1) y)
    (kcol (F := Ideal) (nrm (F := Ideal) x2)) W (krow (F := Ideal) b)

/-- The kernel program's result. -/
def knet (x0 : (⟨S100000x16, .f32⟩ : BufTy).Contents (Elt Ideal)) (x1 x2 : (⟨S400000, .i32⟩ : BufTy).Contents (Elt Ideal))
    (x3 : (⟨S100000, .i32⟩ : BufTy).Contents (Elt Ideal))
    (x4 : (⟨S16x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x1, .f32⟩ : BufTy).Contents (Elt Ideal)) (x11 : (⟨S1, .f32⟩ : BufTy).Contents (Elt Ideal)) :
    (⟨S2000x1, .f32⟩ : BufTy).Contents (Elt Ideal) :=
  pool (F := Ideal) x3
    (out4 (F := Ideal) x1 x2 (nrm (F := Ideal) x1) (nrm (F := Ideal) x2) x11
      (Cert.Spec.proj (N := 100000) (K := 128) (M := 1)
        (ynext x1 x2 (ynext x1 x2 (y1 x0 x1 x2 x4 x5) x6 x7) x8 x9) x10))

end Cert.Net

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Region0.lean ====
/-
  The array a row-tiled dense stage leaves, as one function of the arrays it reads.
  Each of the 20 tiles holds 5000 consecutive rows; on a tile the stage scales every row of the aggregate by that row's
  degree factor, multiplies by the whole weight matrix, adds the bias row and clamps at zero. Row r of the result is
  written by tile r / 5000 alone, so the tiles together give the dense map on all 100000 rows.
-/
import proofs.«152917_j37847251812697_2_alg».proof.Proof.Gen.KernelIdeal.Frame
import proofs.«152917_j37847251812697_2_alg».proof.Proof.Spec
import proofs.«152917_j37847251812697_2_alg».proof.Proof.LibPlainDot
import proofs.«152917_j37847251812697_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-- The matmul's dimension numbers are those of a plain 5000×16 by 16×128 product. -/
theorem dot_eq : dot_S5000x16_S16x128_S5000x128_1_0_0_1_n_n = DotDims.plain 5000 16 128 := rfl

/-- One tile's arithmetic at row p, column q. -/
theorem payload_at (x0 : Vec Ideal S5000x16 .f32) (x1 : Vec Ideal S5000x1 .f32) (x2 : Vec Ideal S16x128 .f32)
    (x3 : Vec Ideal S1x128 .f32) (p : Fin 5000) (q : Fin 128) :
    k0_pay1 (F := Ideal) x0 x1 x2 x3 (ix2 p q)
      = max ((∑ k : Fin 16, (x0 (ix2 p k) * x1 (ix2 p (0 : Fin 1))) * x2 (ix2 k q)) + x3 (ix2 (0 : Fin 1) q)) 0 := by
  unfold k0_pay1
  rw [maximumf_apply, addf_apply, broadcast_apply, dot_eq]
  refine congr (congrArg max (congr (congrArg HAdd.hAdd ?_) ?_)) Ideal.ofBits_zero_f32
  · refine (Cert.LibPlainDot.matmul_plain 5000 16 128 none _ _ (ix2 p q)).trans ?_
    refine Finset.sum_congr rfl fun k _ => ?_
    rw [truncf_apply, truncf_apply, mulf_apply, shapeCast_self, shapeCast_self]
    exact congrArg (fun z => x0 (ix2 p k) * z * x2 (ix2 k q)) (Cert.LibColumn.broadcastTo_a1_ab_apply x1 _ p k)
  · rw [shapeCast_self]
    exact broadcastTo_1b_ab_apply x3 _ p q

/-! ## One tile against the whole arrays -/

/-- A tile's arithmetic, when the tile's row-blocked operands are rows n·5000 … n·5000+4999 of whole arrays and its
    weight and bias operands are the whole arrays, is the dense map of the whole arrays at the global row. -/
theorem tile_eq (A0 : S100000x16.Idx → EReal) (A1 : S100000x1.Idx → EReal) (A2 : S16x128.Idx → EReal) (A3 : S1x128.Idx → EReal)
    (x0 : Vec Ideal S5000x16 .f32) (x1 : Vec Ideal S5000x1 .f32) (x2 : Vec Ideal S16x128 .f32) (x3 : Vec Ideal S1x128 .f32)
    (n : Nat) (hn : n < 20)
    (h0 : ∀ (p : Fin 5000) (k : Fin 16), x0 (ix2 p k) = A0 (ix2 (⟨n * 5000 + p.val, by omega⟩ : Fin 100000) k))
    (h1 : ∀ (p : Fin 5000), x1 (ix2 p (0 : Fin 1)) = A1 (ix2 (⟨n * 5000 + p.val, by omega⟩ : Fin 100000) (0 : Fin 1)))
    (h2 : ∀ (k : Fin 16) (q : Fin 128), x2 (ix2 k q) = A2 (ix2 k q))
    (h3 : ∀ (q : Fin 128), x3 (ix2 (0 : Fin 1) q) = A3 (ix2 (0 : Fin 1) q))
    (j : S5000x128.Idx) :
    k0_pay1 (F := Ideal) x0 x1 x2 x3 j
      = Cert.Spec.dense (N := 100000) (K := 16) (M := 128) A0 A1 A2 A3
          (ix2 (⟨n * 5000 + (j 0).val, by have : (j 0).val < 5000 := (j 0).isLt; omega⟩ : Fin 100000) (j 1)) := by
  obtain ⟨p, q, rfl⟩ : ∃ (p : Fin 5000) (q : Fin 128), j = ix2 p q := ⟨j 0, j 1, eq_ix2 j⟩
  show k0_pay1 (F := Ideal) x0 x1 x2 x3 (ix2 p q)
      = Cert.Spec.dense (N := 100000) (K := 16) (M := 128) A0 A1 A2 A3 (ix2 (⟨n * 5000 + p.val, by omega⟩ : Fin 100000) q)
  rw [payload_at, Cert.Spec.dense_apply, h1, h3]
  refine congrArg (fun z => max (z + A3 (ix2 (0 : Fin 1) q)) 0) (Finset.sum_congr rfl fun k _ => ?_)
  rw [h0, h2]

/-! ## The tiles' positions -/

theorem hz : (![0, 0] : Fin 2 → Nat) = fun _ => 0 := funext fun a => by fin_cases a <;> rfl

/-- The block index of every operand at every tile: the row-blocked operands sit at block row t, column block 0; the weight
    and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- The dense map of the four arrays the stage reads, as the stage finds them. -/
abbrev G (c : Dev nD) : S100000x128.Idx → EReal :=
  Cert.Spec.dense (N := 100000) (K := 16) (M := 128) (V c main_v32) (V c main_v33) (V c main_arg4) (V c main_v34)

/-- Tile t of the aggregate is its rows t·5000 …. -/
theorem blk0_at (c : Dev nD) (t : Fin cfg0.N) (p : Fin 5000) (k : Fin 16) :
    iblk0 V c 0 t (ix2 p k) = V c main_v32 (ix2 (⟨t.val * 5000 + p.val, by have : t.val < 20 := t.isLt; have := p.isLt; show _ < 100000; omega⟩ : Fin 100000) k) := by
  obtain ⟨e0, e1, -⟩ := idx_facts t
  show V c main_v32 (((cfg0.win 0).blk t).view.emb (ix2 p k)) = _
  refine congrArg (V c main_v32) (funext fun a => Fin.ext ?_)
  match a with
  | ⟨0, _⟩ => show win0_0.index t (0 : Fin 2) * 5000 + 1 * p.val = t.val * 5000 + p.val; omega
  | ⟨1, _⟩ => show win0_0.index t (1 : Fin 2) * 16 + 1 * k.val = k.val; omega

/-- Tile t of the degree column is its rows t·5000 …. -/
theorem blk1_at (c : Dev nD) (t : Fin cfg0.N) (p : Fin 5000) :
    iblk0 V c 1 t (ix2 p (0 : Fin 1)) = V c main_v33 (ix2 (⟨t.val * 5000 + p.val, by have : t.val < 20 := t.isLt; have := p.isLt; show _ < 100000; omega⟩ : Fin 100000) (0 : Fin 1)) := by
  obtain ⟨-, -, e0, e1, -⟩ := idx_facts t
  show V c main_v33 (((cfg0.win 1).blk t).view.emb (ix2 p (0 : Fin 1))) = _
  refine congrArg (V c main_v33) (funext fun a => Fin.ext ?_)
  match a with
  | ⟨0, _⟩ => show win0_1.index t (0 : Fin 2) * 5000 + 1 * p.val = t.val * 5000 + p.val; omega
  | ⟨1, _⟩ => show win0_1.index t (1 : Fin 2) * 1 + 1 * (0 : Fin 1).val = (0 : Fin 1).val; omega

/-- Every tile sees the whole weight matrix. -/
theorem blk2_at (c : Dev nD) (t : Fin cfg0.N) (k : Fin 16) (q : Fin 128) :
    iblk0 V c 2 t (ix2 k q) = V c main_arg4 (ix2 k q) := by
  obtain ⟨-, -, -, -, e0, e1, -⟩ := idx_facts t
  show V c main_arg4 (((cfg0.win 2).blk t).view.emb (ix2 k q)) = _
  refine congrArg (V c main_arg4) (funext fun a => Fin.ext ?_)
  match a with
  | ⟨0, _⟩ => show win0_2.index t (0 : Fin 2) * 16 + 1 * k.val = k.val; omega
  | ⟨1, _⟩ => show win0_2.index t (1 : Fin 2) * 128 + 1 * q.val = q.val; omega

/-- Every tile sees the whole bias row. -/
theorem blk3_at (c : Dev nD) (t : Fin cfg0.N) (q : Fin 128) :
    iblk0 V c 3 t (ix2 (0 : Fin 1) q) = V c main_v34 (ix2 (0 : Fin 1) q) := by
  obtain ⟨-, -, -, -, -, -, e0, e1, -⟩ := idx_facts t
  show V c main_v34 (((cfg0.win 3).blk t).view.emb (ix2 (0 : Fin 1) q)) = _
  refine congrArg (V c main_v34) (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

/-! ## What a tile writes back, and the whole array -/

/-- Tile t writes back rows t·5000 … of the dense map. -/
theorem flushed_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S5000x16) hz, View.ld_unit_zero (S := S5000x1) hz,
    View.ld_unit_zero (S := S16x128) hz, View.ld_unit_zero (S := S1x128) hz]
  obtain ⟨-, -, -, -, -, -, -, -, e0, e1⟩ := idx_facts t
  funext j
  refine (tile_eq (V c main_v32) (V c main_v33) (V c main_arg4) (V c main_v34) _ _ _ _ t.val t.isLt
    (blk0_at V c t) (blk1_at V c t) (blk2_at V c t) (blk3_at V c t) _).trans ?_
  show G V c _ = G V c (((cfg0.win 4).blk t).view.emb j)
  refine congrArg (G V c) (funext fun a => Fin.ext ?_)
  match a with
  | ⟨0, _⟩ => show t.val * 5000 + (j 0).val = win0_4.index t (0 : Fin 2) * 5000 + 1 * (j 0).val; omega
  | ⟨1, _⟩ => show (j 1).val = win0_4.index t (1 : Fin 2) * 128 + 1 * (j 1).val; omega

/-- A row-column pair is in tile t iff each coordinate is in the tile's range. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v35).slice (win0_4.rect t)).set ↔ _
  rw [View.set_slice_whole, Rect.mem_set_unit]
  exact Iff.rfl

/-- Row r lies in tile r / 5000. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have ht : (i 0).val / 5000 < 20 := by omega
  obtain ⟨-, -, -, -, -, -, -, -, e0, e1⟩ := idx_facts ⟨(i 0).val / 5000, ht⟩
  refine ⟨⟨(i 0).val / 5000, ht⟩, flush0_4 _, ?_⟩
  rw [mem_blk]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    rw [e1]; omega

/-- After the stage its output array is the dense map of the arrays it read. -/
theorem value (c : Dev nD) :
    (dat0 (F := Ideal) V c).arrAt 4 cfg0.N
      = Cert.Spec.dense (N := 100000) (K := 16) (M := 128) (V c main_v32) (V c main_v33) (V c main_arg4) (V c main_v34) :=
  (dat0 V c).arrAt_eq_of_cover 4 (G V c) (fun t _ => flushed_eq V c t) cover

end Cert.KernelIdeal.Region0

end
-- ==== Proof.Region1.lean ====
/-
  The array a row-tiled dense stage leaves, as one function of the arrays it reads.
  Each of the 20 tiles holds 5000 consecutive rows; on a tile the stage scales every row of the aggregate by that row's
  degree factor, multiplies by the whole weight matrix, adds the bias row and clamps at zero. Row r of the result is
  written by tile r / 5000 alone, so the tiles together give the dense map on all 100000 rows.
-/
import proofs.«152917_j37847251812697_2_alg».proof.Proof.Gen.KernelIdeal.Frame
import proofs.«152917_j37847251812697_2_alg».proof.Proof.Spec
import proofs.«152917_j37847251812697_2_alg».proof.Proof.LibPlainDot
import proofs.«152917_j37847251812697_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-- The matmul's dimension numbers are those of a plain 5000×128 by 128×128 product. -/
theorem dot_eq : dot_S5000x128_S128x128_S5000x128_1_0_0_1_n_n = DotDims.plain 5000 128 128 := rfl

/-- One tile's arithmetic at row p, column q. -/
theorem payload_at (x0 : Vec Ideal S5000x128 .f32) (x1 : Vec Ideal S5000x1 .f32) (x2 : Vec Ideal S128x128 .f32)
    (x3 : Vec Ideal S1x128 .f32) (p : Fin 5000) (q : Fin 128) :
    k1_pay1 (F := Ideal) x0 x1 x2 x3 (ix2 p q)
      = max ((∑ k : Fin 128, (x0 (ix2 p k) * x1 (ix2 p (0 : Fin 1))) * x2 (ix2 k q)) + x3 (ix2 (0 : Fin 1) q)) 0 := by
  unfold k1_pay1
  rw [maximumf_apply, addf_apply, broadcast_apply, dot_eq]
  refine congr (congrArg max (congr (congrArg HAdd.hAdd ?_) ?_)) Ideal.ofBits_zero_f32
  · refine (Cert.LibPlainDot.matmul_plain 5000 128 128 none _ _ (ix2 p q)).trans ?_
    refine Finset.sum_congr rfl fun k _ => ?_
    rw [truncf_apply, truncf_apply, mulf_apply, shapeCast_self, shapeCast_self]
    exact congrArg (fun z => x0 (ix2 p k) * z * x2 (ix2 k q)) (Cert.LibColumn.broadcastTo_a1_ab_apply x1 _ p k)
  · rw [shapeCast_self]
    exact broadcastTo_1b_ab_apply x3 _ p q

/-! ## One tile against the whole arrays -/

/-- A tile's arithmetic, when the tile's row-blocked operands are rows n·5000 … n·5000+4999 of whole arrays and its
    weight and bias operands are the whole arrays, is the dense map of the whole arrays at the global row. -/
theorem tile_eq (A0 : S100000x128.Idx → EReal) (A1 : S100000x1.Idx → EReal) (A2 : S128x128.Idx → EReal) (A3 : S1x128.Idx → EReal)
    (x0 : Vec Ideal S5000x128 .f32) (x1 : Vec Ideal S5000x1 .f32) (x2 : Vec Ideal S128x128 .f32) (x3 : Vec Ideal S1x128 .f32)
    (n : Nat) (hn : n < 20)
    (h0 : ∀ (p : Fin 5000) (k : Fin 128), x0 (ix2 p k) = A0 (ix2 (⟨n * 5000 + p.val, by omega⟩ : Fin 100000) k))
    (h1 : ∀ (p : Fin 5000), x1 (ix2 p (0 : Fin 1)) = A1 (ix2 (⟨n * 5000 + p.val, by omega⟩ : Fin 100000) (0 : Fin 1)))
    (h2 : ∀ (k : Fin 128) (q : Fin 128), x2 (ix2 k q) = A2 (ix2 k q))
    (h3 : ∀ (q : Fin 128), x3 (ix2 (0 : Fin 1) q) = A3 (ix2 (0 : Fin 1) q))
    (j : S5000x128.Idx) :
    k1_pay1 (F := Ideal) x0 x1 x2 x3 j
      = Cert.Spec.dense (N := 100000) (K := 128) (M := 128) A0 A1 A2 A3
          (ix2 (⟨n * 5000 + (j 0).val, by have : (j 0).val < 5000 := (j 0).isLt; omega⟩ : Fin 100000) (j 1)) := by
  obtain ⟨p, q, rfl⟩ : ∃ (p : Fin 5000) (q : Fin 128), j = ix2 p q := ⟨j 0, j 1, eq_ix2 j⟩
  show k1_pay1 (F := Ideal) x0 x1 x2 x3 (ix2 p q)
      = Cert.Spec.dense (N := 100000) (K := 128) (M := 128) A0 A1 A2 A3 (ix2 (⟨n * 5000 + p.val, by omega⟩ : Fin 100000) q)
  rw [payload_at, Cert.Spec.dense_apply, h1, h3]
  refine congrArg (fun z => max (z + A3 (ix2 (0 : Fin 1) q)) 0) (Finset.sum_congr rfl fun k _ => ?_)
  rw [h0, h2]

/-! ## The tiles' positions -/

theorem hz : (![0, 0] : Fin 2 → Nat) = fun _ => 0 := funext fun a => by fin_cases a <;> rfl

/-- The block index of every operand at every tile: the row-blocked operands sit at block row t, column block 0; the weight
    and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The dense map of the four arrays the stage reads, as the stage finds them. -/
abbrev G (c : Dev nD) : S100000x128.Idx → EReal :=
  Cert.Spec.dense (N := 100000) (K := 128) (M := 128) (V c main_v55) (V c main_v56) (V c main_arg6) (V c main_v57)

/-- Tile t of the aggregate is its rows t·5000 …. -/
theorem blk0_at (c : Dev nD) (t : Fin cfg1.N) (p : Fin 5000) (k : Fin 128) :
    iblk1 V c 0 t (ix2 p k) = V c main_v55 (ix2 (⟨t.val * 5000 + p.val, by have : t.val < 20 := t.isLt; have := p.isLt; show _ < 100000; omega⟩ : Fin 100000) k) := by
  obtain ⟨e0, e1, -⟩ := idx_facts t
  show V c main_v55 (((cfg1.win 0).blk t).view.emb (ix2 p k)) = _
  refine congrArg (V c main_v55) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Tile t of the degree column is its rows t·5000 …. -/
theorem blk1_at (c : Dev nD) (t : Fin cfg1.N) (p : Fin 5000) :
    iblk1 V c 1 t (ix2 p (0 : Fin 1)) = V c main_v56 (ix2 (⟨t.val * 5000 + p.val, by have : t.val < 20 := t.isLt; have := p.isLt; show _ < 100000; omega⟩ : Fin 100000) (0 : Fin 1)) := by
  obtain ⟨-, -, e0, e1, -⟩ := idx_facts t
  show V c main_v56 (((cfg1.win 1).blk t).view.emb (ix2 p (0 : Fin 1))) = _
  refine congrArg (V c main_v56) (funext fun a => Fin.ext ?_)
  match a with
  | ⟨0, _⟩ => show win1_1.index t (0 : Fin 2) * 5000 + 1 * p.val = t.val * 5000 + p.val; omega
  | ⟨1, _⟩ => show win1_1.index t (1 : Fin 2) * 1 + 1 * (0 : Fin 1).val = (0 : Fin 1).val; omega

/-- Every tile sees the whole weight matrix. -/
theorem blk2_at (c : Dev nD) (t : Fin cfg1.N) (k : Fin 128) (q : Fin 128) :
    iblk1 V c 2 t (ix2 k q) = V c main_arg6 (ix2 k q) := by
  obtain ⟨-, -, -, -, e0, e1, -⟩ := idx_facts t
  show V c main_arg6 (((cfg1.win 2).blk t).view.emb (ix2 k q)) = _
  refine congrArg (V c main_arg6) (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- Every tile sees the whole bias row. -/
theorem blk3_at (c : Dev nD) (t : Fin cfg1.N) (q : Fin 128) :
    iblk1 V c 3 t (ix2 (0 : Fin 1) q) = V c main_v57 (ix2 (0 : Fin 1) q) := by
  obtain ⟨-, -, -, -, -, -, e0, e1, -⟩ := idx_facts t
  show V c main_v57 (((cfg1.win 3).blk t).view.emb (ix2 (0 : Fin 1) q)) = _
  refine congrArg (V c main_v57) (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

/-! ## What a tile writes back, and the whole array -/

/-- Tile t writes back rows t·5000 … of the dense map. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz,
    View.ld_unit_zero (S := S128x128) hz, View.ld_unit_zero (S := S1x128) hz]
  obtain ⟨-, -, -, -, -, -, -, -, e0, e1⟩ := idx_facts t
  funext j
  refine (tile_eq (V c main_v55) (V c main_v56) (V c main_arg6) (V c main_v57) _ _ _ _ t.val t.isLt
    (blk0_at V c t) (blk1_at V c t) (blk2_at V c t) (blk3_at V c t) _).trans ?_
  show G V c _ = G V c (((cfg1.win 4).blk t).view.emb j)
  refine congrArg (G V c) (funext fun a => Fin.ext ?_)
  match a with
  | ⟨0, _⟩ => show t.val * 5000 + (j 0).val = win1_4.index t (0 : Fin 2) * 5000 + 1 * (j 0).val; omega
  | ⟨1, _⟩ => show (j 1).val = win1_4.index t (1 : Fin 2) * 128 + 1 * (j 1).val; omega

/-- A row-column pair is in tile t iff each coordinate is in the tile's range. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v58).slice (win1_4.rect t)).set ↔ _
  rw [View.set_slice_whole, Rect.mem_set_unit]
  exact Iff.rfl

/-- Row r lies in tile r / 5000. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 5000 < 20 := by omega
  obtain ⟨-, -, -, -, -, -, -, -, e0, e1⟩ := idx_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e1]; omega

/-- After the stage its output array is the dense map of the arrays it read. -/
theorem value (c : Dev nD) :
    (dat1 (F := Ideal) V c).arrAt 4 cfg1.N
      = Cert.Spec.dense (N := 100000) (K := 128) (M := 128) (V c main_v55) (V c main_v56) (V c main_arg6) (V c main_v57) :=
  (dat1 V c).arrAt_eq_of_cover 4 (G V c) (fun t _ => flushed_eq V c t) cover

end Cert.KernelIdeal.Region1

end
-- ==== Proof.Region2.lean ====
/-
  The third tiled stage, read as one whole-array function.
  Every row block of 5000 node rows is scaled by the node's in-degree factor, multiplied by the 128×128 weight matrix,
  shifted by the bias row, clamped at zero, and then multiplied by the 128×1 matrix; the twenty row blocks tile the
  100000 rows, so the output column is the plain product of the dense map of the whole arrays with the 128×1 matrix.
-/
import proofs.«152917_j37847251812697_2_alg».proof.Proof.Gen.KernelIdeal.Frame
import proofs.«152917_j37847251812697_2_alg».proof.Proof.Spec
import proofs.«152917_j37847251812697_2_alg».proof.Proof.LibPlainDot
import proofs.«152917_j37847251812697_2_alg».proof.Proof.LibColumn
import Idealize.ShloMosaic.Lib.Pipeline.Value
import Idealize.ShloMosaic.Lib.ValueIdx
import Idealize.ShloMosaic.Lib.ValueLayout

noncomputable section

namespace Cert.KernelIdeal.Region2

open Idealize.ShloMosaic Idealize.ShloMosaic.ValueIdx Idealize.ShloMosaic.TcCoe Idealize.SL.Sem
open Idealize.ShloMosaic.Pipeline (Dat)
open Cert.KernelIdeal Cert.KernelIdeal.Gen

/-- The two products' dimension numbers are those of a plain matrix product. -/
theorem dot_hidden_plain : dot_S5000x128_S128x128_S5000x128_1_0_0_1_n_n = DotDims.plain 5000 128 128 := rfl
theorem dot_out_plain : dot_S5000x128_S128x1_S5000x1_1_0_0_1_n_n = DotDims.plain 5000 128 1 := rfl

/-- The clamped rows of one block: the dense map of the block, index by index. -/
theorem hidden_at (x0 : Vec Ideal S5000x128 .f32) (x1 : Vec Ideal S5000x1 .f32) (x2 : Vec Ideal S128x128 .f32)
    (x3 : Vec Ideal S1x128 .f32) (p : Fin 5000) (j : Fin 128) :
    k1_pay1 (F := Ideal) x0 x1 x2 x3 (ix2 p j)
      = max ((∑ k : Fin 128, (x0 (ix2 p k) * x1 (ix2 p (0 : Fin 1))) * x2 (ix2 k j)) + x3 (ix2 (0 : Fin 1) j)) 0 := by
  unfold k1_pay1
  simp only [shapeCast_self]
  rw [maximumf_apply, addf_apply, broadcast_apply, broadcastTo_1b_ab_apply, Ideal.ofBits_def, Ideal.ofBits_zero_f32,
    dot_hidden_plain, LibPlainDot.matmul_plain]
  simp only [truncf_apply, mulf_apply, LibColumn.broadcastTo_a1_ab_apply]

/-- The body's stored value is the clamped rows multiplied by the 128×1 matrix. -/
theorem payload_eq (x0 : Vec Ideal S5000x128 .f32) (x1 : Vec Ideal S5000x1 .f32) (x2 : Vec Ideal S128x128 .f32)
    (x3 : Vec Ideal S1x128 .f32) (x4 : Vec Ideal S128x1 .f32) :
    k2_pay1 (F := Ideal) x0 x1 x2 x3 x4
      = matmul (F := Ideal) dot_S5000x128_S128x1_S5000x1_1_0_0_1_n_n none
          (truncf .bf16 (k1_pay1 (F := Ideal) x0 x1 x2 x3) bitsLt_bf16_f32) (truncf .bf16 x4 bitsLt_bf16_f32)
          (constant S5000x1 .f32 0x00000000#32) := rfl

/-- The body's stored value, index by index. -/
theorem payload_at (x0 : Vec Ideal S5000x128 .f32) (x1 : Vec Ideal S5000x1 .f32) (x2 : Vec Ideal S128x128 .f32)
    (x3 : Vec Ideal S1x128 .f32) (x4 : Vec Ideal S128x1 .f32) (p : Fin 5000) (q : Fin 1) :
    k2_pay1 (F := Ideal) x0 x1 x2 x3 x4 (ix2 p q)
      = ∑ j : Fin 128, (max ((∑ k : Fin 128, (x0 (ix2 p k) * x1 (ix2 p (0 : Fin 1))) * x2 (ix2 k j))
          + x3 (ix2 (0 : Fin 1) j)) 0) * x4 (ix2 j q) := by
  rw [payload_eq, dot_out_plain, LibPlainDot.matmul_plain]
  simp only [truncf_apply, hidden_at]

/-! ## From the row blocks to the whole column -/

variable (V : (c : Dev nD) → (b : Ref sig .tc) → Buf (Elt Ideal) ((c : Thread nD τ).loc b))

/-- The column the stage computes from the whole arrays. -/
abbrev whole (c : Dev nD) : S100000x1.Idx → EReal :=
  Cert.Spec.proj (N := 100000) (K := 128) (M := 1)
    (Cert.Spec.dense (N := 100000) (K := 128) (M := 128) (V c main_v78 : S100000x128.Idx → EReal)
      (V c main_v79 : S100000x1.Idx → EReal) (V c main_arg8 : S128x128.Idx → EReal) (V c main_v80 : S1x128.Idx → EReal))
    (V c main_arg10 : S128x1.Idx → EReal)

theorem zero_offsets : (![0, 0] : Fin 2 → Nat) = fun _ => 0 := funext fun a => by fin_cases a <;> rfl

/-- The block index maps over the grid: the row-blocked windows sit at block row t, the whole windows at block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block t of the aggregate rows, read at (p, k), is the array at row 5000·t + p. -/
theorem rows_block (c : Dev nD) (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v78 : S100000x128.Idx → EReal) k := by
  obtain ⟨e0, e1, -⟩ := block_indices t
  unfold iblk2
  rw [View.read_apply]
  show (V c main_v78 : S100000x128.Idx → EReal) _ = _
  refine congrArg (V c main_v78 : S100000x128.Idx → EReal) (funext fun a => Fin.ext ?_)
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- Block t of the in-degree column, read at (p, 0), is the array at row 5000·t + p. -/
theorem degree_block (c : Dev nD) (t : Fin cfg2.N) (x : S5000x1.Idx) (k : S100000x1.Idx)
    (hk0 : (k 0).val = 5000 * t.val + (x 0).val) (hk1 : (k 1).val = (x 1).val) :
    (iblk2 V c 1 t : Vec Ideal S5000x1 .f32) x = (V c main_v79 : S100000x1.Idx → EReal) k := by
  obtain ⟨-, -, e0, e1, -⟩ := block_indices t
  unfold iblk2
  rw [View.read_apply]
  show (V c main_v79 : S100000x1.Idx → EReal) _ = _
  refine congrArg (V c main_v79 : S100000x1.Idx → EReal) (funext fun a => Fin.ext ?_)
  match a with
  | ⟨0, _⟩ => show win2_1.index t (0 : Fin 2) * 5000 + 1 * (x 0).val = (k 0).val; rw [e0, hk0]; omega
  | ⟨1, _⟩ => show win2_1.index t (1 : Fin 2) * 1 + 1 * (x 1).val = (k 1).val; rw [e1, hk1]; omega

/-- The weight matrix's one block is the matrix. -/
theorem weight_block (c : Dev nD) (t : Fin cfg2.N) (x : S128x128.Idx) :
    (iblk2 V c 2 t : Vec Ideal S128x128 .f32) x = (V c main_arg8 : S128x128.Idx → EReal) x := by
  obtain ⟨-, -, -, -, e0, e1, -⟩ := block_indices t
  unfold iblk2
  rw [View.read_apply]
  show (V c main_arg8 : S128x128.Idx → EReal) _ = _
  refine congrArg (V c main_arg8 : S128x128.Idx → EReal) (funext fun a => Fin.ext ?_)
  match a with
  | ⟨0, _⟩ => show win2_2.index t (0 : Fin 2) * 128 + 1 * (x 0).val = (x 0).val; rw [e0]; omega
  | ⟨1, _⟩ => show win2_2.index t (1 : Fin 2) * 128 + 1 * (x 1).val = (x 1).val; rw [e1]; omega

/-- The bias row's one block is the row. -/
theorem bias_block (c : Dev nD) (t : Fin cfg2.N) (x : S1x128.Idx) :
    (iblk2 V c 3 t : Vec Ideal S1x128 .f32) x = (V c main_v80 : S1x128.Idx → EReal) x := by
  obtain ⟨-, -, -, -, -, -, e0, e1, -⟩ := block_indices t
  unfold iblk2
  rw [View.read_apply]
  show (V c main_v80 : S1x128.Idx → EReal) _ = _
  refine congrArg (V c main_v80 : S1x128.Idx → EReal) (funext fun a => Fin.ext ?_)
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The 128×1 matrix's one block is the matrix. -/
theorem out_weight_block (c : Dev nD) (t : Fin cfg2.N) (x : S128x1.Idx) :
    (iblk2 V c 4 t : Vec Ideal S128x1 .f32) x = (V c main_arg10 : S128x1.Idx → EReal) x := by
  obtain ⟨-, -, -, -, -, -, -, -, e0, e1, -⟩ := block_indices t
  unfold iblk2
  rw [View.read_apply]
  show (V c main_arg10 : S128x1.Idx → EReal) _ = _
  refine congrArg (V c main_arg10 : S128x1.Idx → EReal) (funext fun a => Fin.ext ?_)
  match a with
  | ⟨0, _⟩ => show win2_4.index t (0 : Fin 2) * 128 + 1 * (x 0).val = (x 0).val; rw [e0]; omega
  | ⟨1, _⟩ => show win2_4.index t (1 : Fin 2) * 1 + 1 * (x 1).val = (x 1).val; rw [e1]; omega

/-- WHAT POINT t WRITES BACK is block t of the whole column. -/
theorem flushed_eq (c : Dev nD) (t : Fin cfg2.N) :
    (dat2 (F := Ideal) V c).flushed 5 t = ((cfg2.win 5).blk t).view.read (Elt Ideal) (whole V c) := by
  show (cfg2.win 5).cut (grid2.coords t) ((dat2 (F := Ideal) V c).after 5 t) = _
  rw [after2_5]
  unfold out2_5
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets,
    View.ld_unit_zero (S := S128x1) zero_offsets]
  refine funext fun (y : S5000x1.Idx) => ?_
  obtain ⟨p, q, rfl⟩ : ∃ (p : Fin 5000) (q : Fin 1), y = ix2 p q := ⟨y 0, y 1, eq_ix2 y⟩
  refine (payload_at (iblk2 V c 0 t) (iblk2 V c 1 t) (iblk2 V c 2 t) (iblk2 V c 3 t) (iblk2 V c 4 t) p q).trans ?_
  obtain ⟨-, -, -, -, -, -, -, -, -, -, e0, e1⟩ := block_indices t
  have h0 : ((((cfg2.win 5).blk t).view.emb (ix2 p q)) 0).val = 5000 * t.val + p.val := by
    show win2_5.index t (0 : Fin 2) * 5000 + 1 * p.val = _
    rw [e0]; omega
  have h1 : ((((cfg2.win 5).blk t).view.emb (ix2 p q)) 1).val = q.val := by
    show win2_5.index t (1 : Fin 2) * 1 + 1 * q.val = _
    rw [e1]; omega
  show _ = whole V c (((cfg2.win 5).blk t).view.emb (ix2 p q))
  refine Finset.sum_congr rfl fun j _ => ?_
  refine congrArg₂ (· * ·) (congrArg (fun z => max z 0) (congrArg₂ (· + ·) (Finset.sum_congr rfl fun k _ => ?_) ?_)) ?_
  · refine congrArg₂ (· * ·) (congrArg₂ (· * ·) ?_ ?_) ?_
    · exact rows_block V c t (ix2 p k) _ h0 rfl
    · exact degree_block V c t (ix2 p (0 : Fin 1)) _ h0 rfl
    · exact weight_block V c t (ix2 k j)
  · exact bias_block V c t (ix2 (0 : Fin 1) j)
  · exact (out_weight_block V c t (ix2 j q)).trans (congrArg (V c main_arg10 : S128x1.Idx → EReal)
      (funext fun a => Fin.ext (by
        match a with
        | ⟨0, _⟩ => rfl
        | ⟨1, _⟩ => exact h1.symm)))

/-- An index of the column is in point t's block iff each coordinate is in the block's range on its axis. -/
theorem mem_block (t : Fin cfg2.N) (i : S100000x1.Idx) :
    i ∈ ((cfg2.win 5).blk t).view.set ↔ ∀ a : Fin 2, win2_5.index t a * S5000x1.size a ≤ (i a).val
      ∧ (i a).val < win2_5.index t a * S5000x1.size a + S5000x1.size a := by
  show i ∈ ((View.whole main_v81).slice (win2_5.rect t)).set ↔ _
  rw [View.set_slice_whole, Rect.mem_set_unit]
  exact Iff.rfl

/-- Row r of the column is written back by point r / 5000. -/
theorem cover (i : S100000x1.Idx) :
    ∃ t : Fin cfg2.N, (cfg2.win 5).flush t = true ∧ i ∈ ((cfg2.win 5).blk t).view.set := by
  have hi0 : (i 0).val < 100000 := (i 0).isLt
  have hi1 : (i 1).val < 1 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_5 t, ?_⟩
  rw [mem_block]
  obtain ⟨-, -, -, -, -, -, -, -, -, -, e0, e1⟩ := block_indices t
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 1 ≤ (i 1).val ∧ (i 1).val < win2_5.index t (1 : Fin 2) * 1 + 1
    rw [e1]; omega

/-- THE COLUMN after the stage: the plain product with the 128×1 matrix of the dense map of the whole arrays. -/
theorem value (c : Dev nD) :
    (dat2 (F := Ideal) V c).arrAt 5 cfg2.N
      = Cert.Spec.proj (N := 100000) (K := 128) (M := 1)
          (Cert.Spec.dense (N := 100000) (K := 128) (M := 128) (V c main_v78 : S100000x128.Idx → EReal)
            (V c main_v79 : S100000x1.Idx → EReal) (V c main_arg8 : S128x128.Idx → EReal)
            (V c main_v80 : S1x128.Idx → EReal))
          (V c main_arg10 : S128x1.Idx → EReal) :=
  (dat2 (F := Ideal) V c).arrAt_eq_of_cover 5 (whole V c) (fun t _ => flushed_eq V c t) cover

end Cert.KernelIdeal.Region2

end
-- ==== Proof.KernelChain.lean ====
/-
  The kernel program's result as a function of its arguments.

  @main is four host stretches with the three tiled stages between them.  Reading the buffer contents at each
  boundary back to the launch memory: the first stretch computes the two degree factors and the first edge
  aggregation; each tiled stage leaves its output array at the dense map of its input arrays; the second and third
  stretches aggregate the previous stage's output; the last stretch aggregates the one-wide output of the third
  stage, scales it, adds the bias and pools per graph.  The arguments and the two degree factors are written once
  and read at every later boundary unchanged.
-/
import proofs.«152917_j37847251812697_2_alg».proof.Proof.Gen.KernelIdeal.Frame
import proofs.«152917_j37847251812697_2_alg».proof.Proof.KNet
import proofs.«152917_j37847251812697_2_alg».proof.Proof.Region0
import proofs.«152917_j37847251812697_2_alg».proof.Proof.Region1
import proofs.«152917_j37847251812697_2_alg».proof.Proof.Region2
import Idealize.ShloMosaic.Lib.StableHlo.Run

set_option maxRecDepth 16384

noncomputable section

namespace Cert.KernelIdeal.Chain

open Cert.KernelIdeal Cert.KernelIdeal.Gen Cert.Net
open Idealize.ShloMosaic Idealize.ShloMosaic.TcCoe Idealize.ShloMosaic.Tactic Idealize.SL.Sem Idealize.ShloMosaic.StableHlo

/-- No operation of the stretch writes the buffer: its contents pass through. -/
macro "passes_through" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The buffers written before the first stage and read, unchanged, afterwards. -/
def argsL : List (Ref sig .tc) := [main_arg1, main_arg2, main_arg3, main_arg4, main_arg5, main_arg6, main_arg7, main_arg8, main_arg9, main_arg10, main_arg11]
/-- The arguments and the two degree factors. -/
def persist : List (Ref sig .tc) := argsL ++ [main_v9, main_v12]

section Stretches
variable {F : FTy → Type} [FloatOps F]
variable (X : Valuation τ sig (Elt F))

/-! ## Each host stretch, from any contents `X` at its start -/

set_option maxHeartbeats 8000000 in
theorem h0_v9 : StableHlo.after hostOps0 X (Proc.devRef .tc main_v9) = nrm (F := F) (X (Proc.devRef .tc main_arg1)) := by
  after_results_simp; rfl
set_option maxHeartbeats 8000000 in
theorem h0_v12 : StableHlo.after hostOps0 X (Proc.devRef .tc main_v12) = nrm (F := F) (X (Proc.devRef .tc main_arg2)) := by
  after_results_simp; rfl
set_option maxHeartbeats 8000000 in
theorem h0_v32 : StableHlo.after hostOps0 X (Proc.devRef .tc main_v32)
    = agg16 (F := F) (X (Proc.devRef .tc main_arg1)) (X (Proc.devRef .tc main_arg2)) (nrm (F := F) (X (Proc.devRef .tc main_arg1))) (X (Proc.devRef .tc main_arg0)) := by
  after_results_simp; rfl
set_option maxHeartbeats 8000000 in
theorem h0_v33 : StableHlo.after hostOps0 X (Proc.devRef .tc main_v33) = kcol (F := F) (nrm (F := F) (X (Proc.devRef .tc main_arg2))) := by
  after_results_simp; rfl
set_option maxHeartbeats 8000000 in
theorem h0_v34 : StableHlo.after hostOps0 X (Proc.devRef .tc main_v34) = krow (F := F) (X (Proc.devRef .tc main_arg5)) := by
  after_results_simp; rfl

set_option maxHeartbeats 8000000 in
theorem h1_v55 : StableHlo.after hostOps1 X (Proc.devRef .tc main_v55)
    = agg128 (F := F) (X (Proc.devRef .tc main_arg1)) (X (Proc.devRef .tc main_arg2)) (X (Proc.devRef .tc main_v9)) (X (Proc.devRef .tc main_v35)) := by
  after_results_simp; rfl
set_option maxHeartbeats 8000000 in
theorem h1_v56 : StableHlo.after hostOps1 X (Proc.devRef .tc main_v56) = kcol (F := F) (X (Proc.devRef .tc main_v12)) := by
  after_results_simp; rfl
set_option maxHeartbeats 8000000 in
theorem h1_v57 : StableHlo.after hostOps1 X (Proc.devRef .tc main_v57) = krow (F := F) (X (Proc.devRef .tc main_arg7)) := by
  after_results_simp; rfl

set_option maxHeartbeats 8000000 in
theorem h2_v78 : StableHlo.after hostOps2 X (Proc.devRef .tc main_v78)
    = agg128 (F := F) (X (Proc.devRef .tc main_arg1)) (X (Proc.devRef .tc main_arg2)) (X (Proc.devRef .tc main_v9)) (X (Proc.devRef .tc main_v58)) := by
  after_results_simp; rfl
set_option maxHeartbeats 8000000 in
theorem h2_v79 : StableHlo.after hostOps2 X (Proc.devRef .tc main_v79) = kcol (F := F) (X (Proc.devRef .tc main_v12)) := by
  after_results_simp; rfl
set_option maxHeartbeats 8000000 in
theorem h2_v80 : StableHlo.after hostOps2 X (Proc.devRef .tc main_v80) = krow (F := F) (X (Proc.devRef .tc main_arg9)) := by
  after_results_simp; rfl

set_option maxHeartbeats 8000000 in
theorem h3_v116 : StableHlo.after hostOps3 X (Proc.devRef .tc main_v116)
    = pool (F := F) (X (Proc.devRef .tc main_arg3))
        (out4 (F := F) (X (Proc.devRef .tc main_arg1)) (X (Proc.devRef .tc main_arg2)) (X (Proc.devRef .tc main_v9))
          (X (Proc.devRef .tc main_v12)) (X (Proc.devRef .tc main_arg11)) (X (Proc.devRef .tc main_v81))) := by
  after_results_simp; rfl

/-! ## What passes through each stretch -/

theorem keep0 : ∀ b ∈ argsL, StableHlo.after hostOps0 X (Proc.devRef .tc b) = X (Proc.devRef .tc b) := by
  intro b hb
  simp only [argsL, List.mem_cons, List.mem_nil_iff, or_false] at hb
  rcases hb with rfl | rfl | rfl | rfl | rfl | rfl | rfl | rfl | rfl | rfl | rfl <;> passes_through hostOps0
theorem keep1 : ∀ b ∈ persist, StableHlo.after hostOps1 X (Proc.devRef .tc b) = X (Proc.devRef .tc b) := by
  intro b hb
  simp only [persist, argsL, List.cons_append, List.nil_append, List.mem_cons, List.mem_nil_iff, or_false] at hb
  rcases hb with rfl | rfl | rfl | rfl | rfl | rfl | rfl | rfl | rfl | rfl | rfl | rfl | rfl <;> passes_through hostOps1
theorem keep2 : ∀ b ∈ persist, StableHlo.after hostOps2 X (Proc.devRef .tc b) = X (Proc.devRef .tc b) := by
  intro b hb
  simp only [persist, argsL, List.cons_append, List.nil_append, List.mem_cons, List.mem_nil_iff, or_false] at hb
  rcases hb with rfl | rfl | rfl | rfl | rfl | rfl | rfl | rfl | rfl | rfl | rfl | rfl | rfl <;> passes_through hostOps2

end Stretches

/-! ## The boundaries, read back to the launch memory -/

section Run
variable (m : (ℓ : Loc nD τ sig) → Buf (Elt Ideal) ℓ) (ρ : Dev nD → PrngReg) (c : Dev nD)

theorem W2_keep : ∀ b ∈ persist, W2 m ρ c (Proc.devRef .tc b) = W1 m ρ c (Proc.devRef .tc b) := by
  intro b hb
  simp only [persist, argsL, List.cons_append, List.nil_append, List.mem_cons, List.mem_nil_iff, or_false] at hb
  rcases hb with rfl | rfl | rfl | rfl | rfl | rfl | rfl | rfl | rfl | rfl | rfl | rfl | rfl <;>
    first
    | exact W2_of_ne m ρ c _ (by decide)
    | exact (W2_arr m ρ c 2).trans (((dat0 (V1 m ρ) c).arrAt_in 2 rfl _).trans (A_eq0 (V1 m ρ) c 2))
theorem W3_keep : ∀ b ∈ persist, W3 m ρ c (Proc.devRef .tc b) = W2 m ρ c (Proc.devRef .tc b) := keep1 (W2 m ρ c)
theorem W4_keep : ∀ b ∈ persist, W4 m ρ c (Proc.devRef .tc b) = W3 m ρ c (Proc.devRef .tc b) := by
  intro b hb
  simp only [persist, argsL, List.cons_append, List.nil_append, List.mem_cons, List.mem_nil_iff, or_false] at hb
  rcases hb with rfl | rfl | rfl | rfl | rfl | rfl | rfl | rfl | rfl | rfl | rfl | rfl | rfl <;>
    first
    | exact W4_of_ne m ρ c _ (by decide)
    | exact (W4_arr m ρ c 2).trans (((dat1 (V3 m ρ) c).arrAt_in 2 rfl _).trans (A_eq1 (V3 m ρ) c 2))
theorem W5_keep : ∀ b ∈ persist, W5 m ρ c (Proc.devRef .tc b) = W4 m ρ c (Proc.devRef .tc b) := keep2 (W4 m ρ c)
theorem W6_keep : ∀ b ∈ persist, W6 m ρ c (Proc.devRef .tc b) = W5 m ρ c (Proc.devRef .tc b) := by
  intro b hb
  simp only [persist, argsL, List.cons_append, List.nil_append, List.mem_cons, List.mem_nil_iff, or_false] at hb
  rcases hb with rfl | rfl | rfl | rfl | rfl | rfl | rfl | rfl | rfl | rfl | rfl | rfl | rfl <;>
    first
    | exact W6_of_ne m ρ c _ (by decide)
    | exact (W6_arr m ρ c 2).trans (((dat2 (V5 m ρ) c).arrAt_in 2 rfl _).trans (A_eq2 (V5 m ρ) c 2))
    | exact (W6_arr m ρ c 4).trans (((dat2 (V5 m ρ) c).arrAt_in 4 rfl _).trans (A_eq2 (V5 m ρ) c 4))

theorem W2_eq : ∀ b ∈ persist, W2 m ρ c (Proc.devRef .tc b) = W1 m ρ c (Proc.devRef .tc b) := W2_keep m ρ c
theorem W3_eq : ∀ b ∈ persist, W3 m ρ c (Proc.devRef .tc b) = W1 m ρ c (Proc.devRef .tc b) :=
  fun b hb => (W3_keep m ρ c b hb).trans (W2_eq m ρ c b hb)
theorem W4_eq : ∀ b ∈ persist, W4 m ρ c (Proc.devRef .tc b) = W1 m ρ c (Proc.devRef .tc b) :=
  fun b hb => (W4_keep m ρ c b hb).trans (W3_eq m ρ c b hb)
theorem W5_eq : ∀ b ∈ persist, W5 m ρ c (Proc.devRef .tc b) = W1 m ρ c (Proc.devRef .tc b) :=
  fun b hb => (W5_keep m ρ c b hb).trans (W4_eq m ρ c b hb)
theorem W6_eq : ∀ b ∈ persist, W6 m ρ c (Proc.devRef .tc b) = W1 m ρ c (Proc.devRef .tc b) :=
  fun b hb => (W6_keep m ρ c b hb).trans (W5_eq m ρ c b hb)

/-- An argument at the first stage's entry is the launch memory's. -/
theorem W1_arg : ∀ b ∈ argsL, W1 m ρ c (Proc.devRef .tc b) = W0 m ρ c (Proc.devRef .tc b) :=
  keep0 (W0 m ρ c)
theorem W1_v9 : W1 m ρ c (Proc.devRef .tc main_v9) = nrm (F := Ideal) (W0 m ρ c (Proc.devRef .tc main_arg1)) := h0_v9 (W0 m ρ c)
theorem W1_v12 : W1 m ρ c (Proc.devRef .tc main_v12) = nrm (F := Ideal) (W0 m ρ c (Proc.devRef .tc main_arg2)) := h0_v12 (W0 m ρ c)

theorem arg_mem_persist : ∀ b ∈ argsL, b ∈ persist := fun b hb => List.mem_append_left _ hb

theorem W2_arg : ∀ b ∈ argsL, W2 m ρ c (Proc.devRef .tc b) = W0 m ρ c (Proc.devRef .tc b) :=
  fun b hb => (W2_eq m ρ c b (arg_mem_persist b hb)).trans (W1_arg m ρ c b hb)
theorem W3_arg : ∀ b ∈ argsL, W3 m ρ c (Proc.devRef .tc b) = W0 m ρ c (Proc.devRef .tc b) :=
  fun b hb => (W3_eq m ρ c b (arg_mem_persist b hb)).trans (W1_arg m ρ c b hb)
theorem W4_arg : ∀ b ∈ argsL, W4 m ρ c (Proc.devRef .tc b) = W0 m ρ c (Proc.devRef .tc b) :=
  fun b hb => (W4_eq m ρ c b (arg_mem_persist b hb)).trans (W1_arg m ρ c b hb)
theorem W5_arg : ∀ b ∈ argsL, W5 m ρ c (Proc.devRef .tc b) = W0 m ρ c (Proc.devRef .tc b) :=
  fun b hb => (W5_eq m ρ c b (arg_mem_persist b hb)).trans (W1_arg m ρ c b hb)
theorem W6_arg : ∀ b ∈ argsL, W6 m ρ c (Proc.devRef .tc b) = W0 m ρ c (Proc.devRef .tc b) :=
  fun b hb => (W6_eq m ρ c b (arg_mem_persist b hb)).trans (W1_arg m ρ c b hb)

theorem v9_mem : main_v9 ∈ persist := by simp [persist, argsL]
theorem v12_mem : main_v12 ∈ persist := by simp [persist, argsL]

/-- The first stage's output array. -/
theorem stage0 : W2 m ρ c (Proc.devRef .tc main_v35)
    = y1 (W0 m ρ c (Proc.devRef .tc main_arg0)) (W0 m ρ c (Proc.devRef .tc main_arg1)) (W0 m ρ c (Proc.devRef .tc main_arg2))
        (W0 m ρ c (Proc.devRef .tc main_arg4)) (W0 m ρ c (Proc.devRef .tc main_arg5)) := by
  refine (W2_arr m ρ c 4).trans ?_
  rw [Cert.KernelIdeal.Region0.value (V1 m ρ) c]
  show Cert.Spec.dense (StableHlo.after hostOps0 (W0 m ρ c) (Proc.devRef .tc main_v32)) (StableHlo.after hostOps0 (W0 m ρ c) (Proc.devRef .tc main_v33))
    (W1 m ρ c (Proc.devRef .tc main_arg4)) (StableHlo.after hostOps0 (W0 m ρ c) (Proc.devRef .tc main_v34)) = _
  rw [h0_v32, h0_v33, h0_v34, W1_arg m ρ c main_arg4 (by simp [argsL])]
  rfl

/-- The second stage's output array. -/
theorem stage1 : W4 m ρ c (Proc.devRef .tc main_v58)
    = ynext (W0 m ρ c (Proc.devRef .tc main_arg1)) (W0 m ρ c (Proc.devRef .tc main_arg2))
        (y1 (W0 m ρ c (Proc.devRef .tc main_arg0)) (W0 m ρ c (Proc.devRef .tc main_arg1)) (W0 m ρ c (Proc.devRef .tc main_arg2))
          (W0 m ρ c (Proc.devRef .tc main_arg4)) (W0 m ρ c (Proc.devRef .tc main_arg5)))
        (W0 m ρ c (Proc.devRef .tc main_arg6)) (W0 m ρ c (Proc.devRef .tc main_arg7)) := by
  refine (W4_arr m ρ c 4).trans ?_
  rw [Cert.KernelIdeal.Region1.value (V3 m ρ) c]
  show Cert.Spec.dense (StableHlo.after hostOps1 (W2 m ρ c) (Proc.devRef .tc main_v55)) (StableHlo.after hostOps1 (W2 m ρ c) (Proc.devRef .tc main_v56))
    (W3 m ρ c (Proc.devRef .tc main_arg6)) (StableHlo.after hostOps1 (W2 m ρ c) (Proc.devRef .tc main_v57)) = _
  rw [h1_v55, h1_v56, h1_v57, W3_arg m ρ c main_arg6 (by simp [argsL]), W2_arg m ρ c main_arg1 (by simp [argsL]),
    W2_arg m ρ c main_arg2 (by simp [argsL]), W2_arg m ρ c main_arg7 (by simp [argsL]),
    W2_eq m ρ c main_v9 v9_mem, W2_eq m ρ c main_v12 v12_mem, W1_v9, W1_v12, stage0]
  rfl

/-- The third stage's output array: the clamped rows already multiplied by the fourth weight column. -/
theorem stage2 : W6 m ρ c (Proc.devRef .tc main_v81)
    = Cert.Spec.proj (N := 100000) (K := 128) (M := 1)
        (ynext (W0 m ρ c (Proc.devRef .tc main_arg1)) (W0 m ρ c (Proc.devRef .tc main_arg2))
          (ynext (W0 m ρ c (Proc.devRef .tc main_arg1)) (W0 m ρ c (Proc.devRef .tc main_arg2))
            (y1 (W0 m ρ c (Proc.devRef .tc main_arg0)) (W0 m ρ c (Proc.devRef .tc main_arg1)) (W0 m ρ c (Proc.devRef .tc main_arg2))
              (W0 m ρ c (Proc.devRef .tc main_arg4)) (W0 m ρ c (Proc.devRef .tc main_arg5)))
            (W0 m ρ c (Proc.devRef .tc main_arg6)) (W0 m ρ c (Proc.devRef .tc main_arg7)))
          (W0 m ρ c (Proc.devRef .tc main_arg8)) (W0 m ρ c (Proc.devRef .tc main_arg9)))
        (W0 m ρ c (Proc.devRef .tc main_arg10)) := by
  refine (W6_arr m ρ c 5).trans ?_
  rw [Cert.KernelIdeal.Region2.value (V5 m ρ) c]
  show Cert.Spec.proj (Cert.Spec.dense (StableHlo.after hostOps2 (W4 m ρ c) (Proc.devRef .tc main_v78)) (StableHlo.after hostOps2 (W4 m ρ c) (Proc.devRef .tc main_v79))
    (W5 m ρ c (Proc.devRef .tc main_arg8)) (StableHlo.after hostOps2 (W4 m ρ c) (Proc.devRef .tc main_v80))) (W5 m ρ c (Proc.devRef .tc main_arg10)) = _
  rw [h2_v78, h2_v79, h2_v80, W5_arg m ρ c main_arg8 (by simp [argsL]), W5_arg m ρ c main_arg10 (by simp [argsL]),
    W4_arg m ρ c main_arg1 (by simp [argsL]), W4_arg m ρ c main_arg2 (by simp [argsL]), W4_arg m ρ c main_arg9 (by simp [argsL]),
    W4_eq m ρ c main_v9 v9_mem, W4_eq m ρ c main_v12 v12_mem, W1_v9, W1_v12, stage1]
  rfl

/-- The result buffer after the run is the kernel-side function of the launch memory's arguments. -/
theorem value : W7 m ρ c (Proc.devRef .tc main_v116)
    = knet (W0 m ρ c (Proc.devRef .tc main_arg0)) (W0 m ρ c (Proc.devRef .tc main_arg1)) (W0 m ρ c (Proc.devRef .tc main_arg2))
        (W0 m ρ c (Proc.devRef .tc main_arg3)) (W0 m ρ c (Proc.devRef .tc main_arg4)) (W0 m ρ c (Proc.devRef .tc main_arg5))
        (W0 m ρ c (Proc.devRef .tc main_arg6)) (W0 m ρ c (Proc.devRef .tc main_arg7)) (W0 m ρ c (Proc.devRef .tc main_arg8))
        (W0 m ρ c (Proc.devRef .tc main_arg9)) (W0 m ρ c (Proc.devRef .tc main_arg10)) (W0 m ρ c (Proc.devRef .tc main_arg11)) := by
  show StableHlo.after hostOps3 (W6 m ρ c) (Proc.devRef .tc main_v116) = _
  rw [h3_v116, W6_arg m ρ c main_arg1 (by simp [argsL]), W6_arg m ρ c main_arg2 (by simp [argsL]), W6_arg m ρ c main_arg3 (by simp [argsL]),
    W6_arg m ρ c main_arg11 (by simp [argsL]), W6_eq m ρ c main_v9 v9_mem, W6_eq m ρ c main_v12 v12_mem, W1_v9, W1_v12, stage2]
  rfl

end Run

end Cert.KernelIdeal.Chain

end
-- ==== Proof.RefLayers.lean ====
/-
  The reference's dense layers as whole-array functions.

  A dense layer of the reference scales row i of the aggregate by the node's factor nd i, multiplies by the weight
  matrix, adds the bias row and clamps at zero, the column of factors and the bias row each spread over the matrix by
  two broadcasts. Index by index on the extended reals this is max (∑ₖ (a i k · nd i) · W k j + b j) 0: the function
  Cert.Spec.dense of the same arrays, with the column and the row written as shape casts of the two vectors.
-/
import proofs.«152917_j37847251812697_2_alg».proof.ReferenceIdeal
import proofs.«152917_j37847251812697_2_alg».proof.Proof.Gen.ReferenceIdeal
import proofs.«152917_j37847251812697_2_alg».proof.Proof.Spec
import proofs.«152917_j37847251812697_2_alg».proof.Proof.LibPlainDot
import proofs.«152917_j37847251812697_2_alg».proof.Proof.LibColumn
import proofs.«152917_j37847251812697_2_alg».proof.Proof.Net
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Layers

open Cert.ReferenceIdeal Cert.ReferenceIdeal.Facts₀ Idealize.ShloMosaic Idealize.ShloMosaic.ValueIdx

/-- A vector of length n spread first to an [n, 1] column and then over c columns reads, at (p, k), its entry p. -/
theorem col_bcast_apply {α : Type} {n c : ℕ} (hn : n ≠ 1)
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2))
    (v : (⟨1, ![n]⟩ : Shape).Idx → α) (p : Fin n) (k : Fin c) :
    broadcastInDim ⟨2, ![n, c]⟩ ![0, 1] h2 (broadcastInDim ⟨2, ![n, 1]⟩ ![0] h1 v) (ix2 p k) = v (ix1 p) :=
  (broadcastInDim_apply _ h2 _ (ix2 p k) (ix2 p (0 : Fin 1)) (fun a => match a with
    | ⟨0, _⟩ => by show p.val = if n = 1 then 0 else p.val; rw [if_neg hn]
    | ⟨1, _⟩ => by show 0 = if (1 : Nat) = 1 then 0 else k.val; rw [if_pos rfl])).trans
  (broadcastInDim_apply _ h1 v (ix2 p (0 : Fin 1)) (ix1 p) (fun a => match a with
    | ⟨0, _⟩ => by show p.val = if n = 1 then 0 else p.val; rw [if_neg hn]))

/-- A vector of length m spread first to a [1, m] row and then over r rows reads, at (p, q), its entry q. -/
theorem row_bcast_apply {α : Type} {r m : ℕ} (hm : m ≠ 1)
    (h1 : (⟨1, ![m]⟩ : Shape).BroadcastsInDim ⟨2, ![1, m]⟩ (![1] : Fin 1 → Fin 2))
    (h2 : (⟨2, ![1, m]⟩ : Shape).BroadcastsInDim ⟨2, ![r, m]⟩ (![0, 1] : Fin 2 → Fin 2))
    (b : (⟨1, ![m]⟩ : Shape).Idx → α) (p : Fin r) (q : Fin m) :
    broadcastInDim ⟨2, ![r, m]⟩ ![0, 1] h2 (broadcastInDim ⟨2, ![1, m]⟩ ![1] h1 b) (ix2 p q) = b (ix1 q) :=
  (broadcastInDim_apply _ h2 _ (ix2 p q) (ix2 (0 : Fin 1) q) (fun a => match a with
    | ⟨0, _⟩ => by show 0 = if (1 : Nat) = 1 then 0 else p.val; rw [if_pos rfl]
    | ⟨1, _⟩ => by show q.val = if m = 1 then 0 else q.val; rw [if_neg hm])).trans
  (broadcastInDim_apply _ h1 b (ix2 (0 : Fin 1) q) (ix1 q) (fun a => match a with
    | ⟨0, _⟩ => by show q.val = if m = 1 then 0 else q.val; rw [if_neg hm]))

/-- The scalar zero spread over a matrix reads 0 everywhere, at the ideal values. -/
theorem zero_bcast_apply {r m : ℕ} (h : (⟨0, ![]⟩ : Shape).BroadcastsInDim ⟨2, ![r, m]⟩ (![] : Fin 0 → Fin 2))
    (i : (⟨2, ![r, m]⟩ : Shape).Idx) :
    broadcastInDim ⟨2, ![r, m]⟩ ![] h (constant (F := Ideal) ⟨0, ![]⟩ .f32 0x00000000#32) i = (0 : EReal) :=
  (broadcastInDim_apply _ h _ i (fun a => a.elim0) (fun a => a.elim0)).trans Ideal.ofBits_zero_f32

/-- The column form of a node vector reads, at (p, 0), the vector's entry p. -/
theorem kcol_apply (v : FVec Ideal S100000 .f32) (p : Fin 100000) :
    Cert.Net.kcol (F := Ideal) v (ix2 p (0 : Fin 1)) = v (ix1 p) :=
  Cert.LibColumn.shapeCast_a_a1_apply v _ p 0

/-- The row form of a bias vector reads, at (0, q), the vector's entry q. -/
theorem krow_apply (b : FVec Ideal S128 .f32) (q : Fin 128) :
    Cert.Net.krow (F := Ideal) b (ix2 (0 : Fin 1) q) = b (ix1 q) :=
  shapeCast_a_1a_apply b _ 0 q

/-- The reference's dense layer on 128-wide rows is Spec.dense of the same arrays. -/
theorem ref_dense128 (a : FVec Ideal S100000x128 .f32) (v : FVec Ideal S100000 .f32) (W : FVec Ideal S128x128 .f32)
    (b : FVec Ideal S128 .f32) :
    maximumf (addf (Host.dotGeneral dot_S100000x128_S128x128_S100000x128_1_0_0_1_n_n none
        (mulf a (broadcastInDim S100000x128 ![0, 1] bcast_S100000x1_S100000x128_0_1
          (broadcastInDim S100000x1 ![0] bcast_S100000_S100000x1_0 v))) W)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
      = Cert.Spec.dense (N := 100000) (K := 128) (M := 128) a (Cert.Net.kcol (F := Ideal) v) W (Cert.Net.krow (F := Ideal) b) := by
  funext i
  obtain ⟨p, q, rfl⟩ : ∃ (p : Fin 100000) (q : Fin 128), i = ix2 p q := ⟨i 0, i 1, eq_ix2 i⟩
  rw [Cert.Spec.dense_apply, kcol_apply, krow_apply]
  refine (maximumf_apply _ _ _).trans ?_
  rw [zero_bcast_apply]
  refine congrArg (fun t => max t (0 : EReal)) ?_
  refine (addf_apply _ _ _).trans ?_
  rw [row_bcast_apply (by decide)]
  refine congrArg (fun t => t + b (ix1 q)) ?_
  refine (Cert.LibPlainDot.dotGeneral_plain 100000 128 128 none _ W (ix2 p q)).trans ?_
  refine Finset.sum_congr rfl fun k _ => ?_
  refine congrArg (fun t => t * W (ix2 k q)) ?_
  refine (mulf_apply _ _ _).trans ?_
  exact congrArg (fun t => a (ix2 p k) * t) (col_bcast_apply (by decide) _ _ v p k)

/-- The reference's dense layer on 16-wide rows is Spec.dense of the same arrays. -/
theorem ref_dense16 (a : FVec Ideal S100000x16 .f32) (v : FVec Ideal S100000 .f32) (W : FVec Ideal S16x128 .f32)
    (b : FVec Ideal S128 .f32) :
    maximumf (addf (Host.dotGeneral dot_S100000x16_S16x128_S100000x128_1_0_0_1_n_n none
        (mulf a (broadcastInDim S100000x16 ![0, 1] bcast_S100000x1_S100000x16_0_1
          (broadcastInDim S100000x1 ![0] bcast_S100000_S100000x1_0 v))) W)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
      = Cert.Spec.dense (N := 100000) (K := 16) (M := 128) a (Cert.Net.kcol (F := Ideal) v) W (Cert.Net.krow (F := Ideal) b) := by
  funext i
  obtain ⟨p, q, rfl⟩ : ∃ (p : Fin 100000) (q : Fin 128), i = ix2 p q := ⟨i 0, i 1, eq_ix2 i⟩
  rw [Cert.Spec.dense_apply, kcol_apply, krow_apply]
  refine (maximumf_apply _ _ _).trans ?_
  rw [zero_bcast_apply]
  refine congrArg (fun t => max t (0 : EReal)) ?_
  refine (addf_apply _ _ _).trans ?_
  rw [row_bcast_apply (by decide)]
  refine congrArg (fun t => t + b (ix1 q)) ?_
  refine (Cert.LibPlainDot.dotGeneral_plain 100000 16 128 none _ W (ix2 p q)).trans ?_
  refine Finset.sum_congr rfl fun k _ => ?_
  refine congrArg (fun t => t * W (ix2 k q)) ?_
  refine (mulf_apply _ _ _).trans ?_
  exact congrArg (fun t => a (ix2 p k) * t) (col_bcast_apply (by decide) _ _ v p k)

end Cert.ReferenceIdeal.Layers

end
-- ==== Proof.RNet.lean ====
/-
  The reference program's last layer, as a function of arrays: aggregate the 128-wide rows over the edges, scale
  each node's row by its destination factor, multiply by the weight column, add the bias.
-/
import proofs.«152917_j37847251812697_2_alg».proof.ReferenceIdeal
import proofs.«152917_j37847251812697_2_alg».proof.Proof.Gen.ReferenceIdeal

noncomputable section

namespace Cert.RNet

open Cert.ReferenceIdeal Cert.ReferenceIdeal.Facts₀ Idealize.ShloMosaic

variable {F : FTy → Type} [FloatOps F]

/-- The source indices, negative entries wrapped by the row count, as the one-column table a gather reads. -/
def wrapIdx (s : (⟨S400000, .i32⟩ : BufTy).Contents (Elt F)) : (⟨S400000x1, .i32⟩ : BufTy).Contents (Elt F) :=
  broadcastInDim S400000x1 ![0] bcast_S400000_S400000x1_0
    (select (cmpi .slt s (broadcastInDim S400000 ![] bcast_S_S400000 (constantI S_ 32 0#32)))
      (addi s (broadcastInDim S400000 ![] bcast_S_S400000 (constantI S_ 32 100000#32))) s)

/-- The 128-wide edge aggregation, in the reference's spelling. -/
def agg128 (src dst : (⟨S400000, .i32⟩ : BufTy).Contents (Elt F)) (ns : (⟨S100000, .f32⟩ : BufTy).Contents (Elt F))
    (x : (⟨S100000x128, .f32⟩ : BufTy).Contents (Elt F)) : (⟨S100000x128, .f32⟩ : BufTy).Contents (Elt F) :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 dst)
    (mulf (Host.gather gather_S100000x128_S400000x1_S400000x128_1_0_n_n_0_1_1128 x (wrapIdx (F := F) src))
      (broadcastInDim S400000x128 ![0, 1] bcast_S400000x1_S400000x128_0_1
        (broadcastInDim S400000x1 ![0] bcast_S400000_S400000x1_0
          (Host.gather gather_S100000_S400000x1_S400000_n_0_n_n_0_1_1 ns (wrapIdx (F := F) src)))))

/-- The reference's fourth layer before pooling, from the third layer's output `y3`. -/
def out4 (src dst : (⟨S400000, .i32⟩ : BufTy).Contents (Elt F)) (ns nd : (⟨S100000, .f32⟩ : BufTy).Contents (Elt F))
    (b4 : (⟨S1, .f32⟩ : BufTy).Contents (Elt F)) (W4 : (⟨S128x1, .f32⟩ : BufTy).Contents (Elt F))
    (y3 : (⟨S100000x128, .f32⟩ : BufTy).Contents (Elt F)) : (⟨S100000x1, .f32⟩ : BufTy).Contents (Elt F) :=
  addf
    (Host.dotGeneral dot_S100000x128_S128x1_S100000x1_1_0_0_1_n_n none
      (mulf (agg128 src dst ns y3)
        (broadcastInDim S100000x128 ![0, 1] bcast_S100000x1_S100000x128_0_1
          (broadcastInDim S100000x1 ![0] bcast_S100000_S100000x1_0 nd)))
      W4)
    (broadcastInDim S100000x1 ![0, 1] bcast_S1x1_S100000x1_0_1 (broadcastInDim S1x1 ![1] bcast_S1_S1x1_1 b4))

end Cert.RNet

end
-- ==== Proof.RefNet.lean ====
/-
  The reference program, stage by stage, as the functions of arrays the kernel side is written with.

  Each of the reference's first three layers aggregates over the edges (the degree factors, the wrapped source indices,
  a row gather, a scaling and a scatter-add: the same host operations, on the same arrays, as the kernel side's
  aggregation) and then applies its dense part, which is Spec.dense of the aggregate. So its first layer's output is
  y1 of the arguments, its second and third layers' outputs are ynext of the previous layer's output, and its result is
  the per-graph mean of its last layer applied to the third layer's output.
-/
import proofs.«152917_j37847251812697_2_alg».proof.Proof.Gen.ReferenceIdeal.Read
import proofs.«152917_j37847251812697_2_alg».proof.Proof.RefLayers
import proofs.«152917_j37847251812697_2_alg».proof.Proof.KNet
import proofs.«152917_j37847251812697_2_alg».proof.Proof.RNet

noncomputable section

namespace Cert.ReferenceIdeal.RefNet

open Cert.ReferenceIdeal Cert.ReferenceIdeal.Facts₀ Idealize.ShloMosaic

/-- The reference's source degree factor is the kernel side's. -/
theorem ref_ns (x1 : (⟨S400000, .i32⟩ : BufTy).Contents (Elt Ideal)) : Read.val_main_v9 (F := Ideal) x1 = Cert.Net.nrm (F := Ideal) x1 := rfl

/-- The reference's destination degree factor is the kernel side's. -/
theorem ref_nd (x2 : (⟨S400000, .i32⟩ : BufTy).Contents (Elt Ideal)) : Read.val_main_v12 (F := Ideal) x2 = Cert.Net.nrm (F := Ideal) x2 := rfl

/-- The reference's first aggregation is the kernel side's 16-wide aggregation of the features. -/
theorem ref_agg16 (x0 : (⟨S100000x16, .f32⟩ : BufTy).Contents (Elt Ideal)) (x1 x2 : (⟨S400000, .i32⟩ : BufTy).Contents (Elt Ideal)) :
    Read.val_main_v32 (F := Ideal) x0 x1 x2 = Cert.Net.agg16 (F := Ideal) x1 x2 (Cert.Net.nrm (F := Ideal) x1) x0 := rfl

/-- The reference's first layer is y1. -/
theorem ref_y1 (x0 : (⟨S100000x16, .f32⟩ : BufTy).Contents (Elt Ideal)) (x1 x2 : (⟨S400000, .i32⟩ : BufTy).Contents (Elt Ideal)) (x4 : (⟨S16x128, .f32⟩ : BufTy).Contents (Elt Ideal)) (x5 : (⟨S128, .f32⟩ : BufTy).Contents (Elt Ideal)) :
    Read.val_main_v40 (F := Ideal) x0 x1 x2 x4 x5 = Cert.Net.y1 x0 x1 x2 x4 x5 := by
  have e : Read.val_main_v40 (F := Ideal) x0 x1 x2 x4 x5 =
      maximumf (addf (Host.dotGeneral dot_S100000x16_S16x128_S100000x128_1_0_0_1_n_n none
        (mulf (Read.val_main_v32 (F := Ideal) x0 x1 x2) (broadcastInDim S100000x16 ![0, 1] bcast_S100000x1_S100000x16_0_1
          (broadcastInDim S100000x1 ![0] bcast_S100000_S100000x1_0 (Read.val_main_v12 (F := Ideal) x2)))) x4)
        (broadcastInDim S100000x128 ![0, 1] bcast_S1x128_S100000x128_0_1 (broadcastInDim S1x128 ![1] bcast_S128_S1x128_1 x5)))
      (broadcastInDim S100000x128 ![] bcast_S_S100000x128 (constant (F := Ideal) S_ .f32 0x00000000#32)) := rfl
  rw [e, Layers.ref_dense16, ref_agg16, ref_nd]
  rfl

/-- The reference's second aggregation is the kernel side's 128-wide aggregation of the first layer's output. -/
theorem ref_agg128_2 (x0 : (⟨S100000x16, .f32⟩ : BufTy).Contents (Elt Ideal)) (x1 x2 : (⟨S400000, .i32⟩ : BufTy).Contents (Elt Ideal)) (x4 : (⟨S16x128, .f32⟩ : BufTy).Contents (Elt Ideal)) (x5 : (⟨S128, .f32⟩ : BufTy).Contents (Elt Ideal)) :
    Read.val_main_v60 (F := Ideal) x0 x1 x2 x4 x5 =
      Cert.Net.agg128 (F := Ideal) x1 x2 (Cert.Net.nrm (F := Ideal) x1) (Read.val_main_v40 (F := Ideal) x0 x1 x2 x4 x5) := rfl

/-- The reference's second layer is ynext of its first layer's output. -/
theorem ref_y2 (x0 : (⟨S100000x16, .f32⟩ : BufTy).Contents (Elt Ideal)) (x1 x2 : (⟨S400000, .i32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Read.val_main_v68 (F := Ideal) x0 x1 x2 x4 x5 x6 x7 =
      Cert.Net.ynext x1 x2 (Read.val_main_v40 (F := Ideal) x0 x1 x2 x4 x5) x6 x7 := by
  have e : Read.val_main_v68 (F := Ideal) x0 x1 x2 x4 x5 x6 x7 =
      maximumf (addf (Host.dotGeneral dot_S100000x128_S128x128_S100000x128_1_0_0_1_n_n none
        (mulf (Read.val_main_v60 (F := Ideal) x0 x1 x2 x4 x5) (broadcastInDim S100000x128 ![0, 1] bcast_S100000x1_S100000x128_0_1
          (broadcastInDim S100000x1 ![0] bcast_S100000_S100000x1_0 (Read.val_main_v12 (F := Ideal) x2)))) x6)
        (broadcastInDim S100000x128 ![0, 1] bcast_S1x128_S100000x128_0_1 (broadcastInDim S1x128 ![1] bcast_S128_S1x128_1 x7)))
      (broadcastInDim S100000x128 ![] bcast_S_S100000x128 (constant (F := Ideal) S_ .f32 0x00000000#32)) := rfl
  rw [e, Layers.ref_dense128, ref_agg128_2, ref_nd]
  rfl

/-- The reference's third aggregation is the kernel side's 128-wide aggregation of the second layer's output. -/
theorem ref_agg128_3 (x0 : (⟨S100000x16, .f32⟩ : BufTy).Contents (Elt Ideal)) (x1 x2 : (⟨S400000, .i32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    Read.val_main_v88 (F := Ideal) x0 x1 x2 x4 x5 x6 x7 =
      Cert.Net.agg128 (F := Ideal) x1 x2 (Cert.Net.nrm (F := Ideal) x1) (Read.val_main_v68 (F := Ideal) x0 x1 x2 x4 x5 x6 x7) := rfl

/-- The reference's third layer is ynext of its second layer's output. -/
theorem ref_y3 (x0 : (⟨S100000x16, .f32⟩ : BufTy).Contents (Elt Ideal)) (x1 x2 : (⟨S400000, .i32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    Read.val_main_v96 (F := Ideal) x0 x1 x2 x4 x5 x6 x7 x8 x9 =
      Cert.Net.ynext x1 x2 (Read.val_main_v68 (F := Ideal) x0 x1 x2 x4 x5 x6 x7) x8 x9 := by
  have e : Read.val_main_v96 (F := Ideal) x0 x1 x2 x4 x5 x6 x7 x8 x9 =
      maximumf (addf (Host.dotGeneral dot_S100000x128_S128x128_S100000x128_1_0_0_1_n_n none
        (mulf (Read.val_main_v88 (F := Ideal) x0 x1 x2 x4 x5 x6 x7) (broadcastInDim S100000x128 ![0, 1] bcast_S100000x1_S100000x128_0_1
          (broadcastInDim S100000x1 ![0] bcast_S100000_S100000x1_0 (Read.val_main_v12 (F := Ideal) x2)))) x8)
        (broadcastInDim S100000x128 ![0, 1] bcast_S1x128_S100000x128_0_1 (broadcastInDim S1x128 ![1] bcast_S128_S1x128_1 x9)))
      (broadcastInDim S100000x128 ![] bcast_S_S100000x128 (constant (F := Ideal) S_ .f32 0x00000000#32)) := rfl
  rw [e, Layers.ref_dense128, ref_agg128_3, ref_nd]
  rfl

/-- The reference's result is the per-graph mean of its last layer applied to its third layer's output. -/
theorem ref_out (x0 : (⟨S100000x16, .f32⟩ : BufTy).Contents (Elt Ideal)) (x1 x2 : (⟨S400000, .i32⟩ : BufTy).Contents (Elt Ideal)) (x3 : (⟨S100000, .i32⟩ : BufTy).Contents (Elt Ideal)) (x4 : (⟨S16x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x1, .f32⟩ : BufTy).Contents (Elt Ideal)) (x11 : (⟨S1, .f32⟩ : BufTy).Contents (Elt Ideal)) :
    Read.val_main_v134 (F := Ideal) x0 x1 x2 x3 x4 x5 x6 x7 x8 x9 x10 x11 =
      Cert.Net.pool (F := Ideal) x3 (Cert.RNet.out4 (F := Ideal) x1 x2 (Cert.Net.nrm (F := Ideal) x1) (Cert.Net.nrm (F := Ideal) x2)
        x11 x10 (Read.val_main_v96 (F := Ideal) x0 x1 x2 x4 x5 x6 x7 x8 x9)) := by
  have e : Read.val_main_v134 (F := Ideal) x0 x1 x2 x3 x4 x5 x6 x7 x8 x9 x10 x11 =
      Cert.Net.pool (F := Ideal) x3 (Cert.RNet.out4 (F := Ideal) x1 x2 (Read.val_main_v9 (F := Ideal) x1)
        (Read.val_main_v12 (F := Ideal) x2) x11 x10 (Read.val_main_v96 (F := Ideal) x0 x1 x2 x4 x5 x6 x7 x8 x9)) := rfl
  rw [e, ref_ns, ref_nd]

end Cert.ReferenceIdeal.RefNet

end
-- ==== Proof.LibSegment.lean ====
import Idealize.ShloMosaic.PureOps
import Idealize.ShloMosaic.PureOps.Ideal
import Idealize.ShloMosaic.Lib.ValueIdx
import Mathlib.Tactic

/-!
# Row gather and row scatter-add of a two-dimensional array, read at an index

For an array of shape [N, K] and a column of E integer row numbers (shape [E, 1]):

* the ROW GATHER takes row number e of the result, of shape [E, K], from the row of the operand
  whose number is the e-th index read signed and clamped into [0, N - 1] (gather_rows_apply);
* the ROW SCATTER-ADD adds row e of the updates, of shape [E, K], to the row of the operand whose
  number is the e-th index read signed, and drops it when that number is outside [0, N - 1]; at
  the ideal instance element (n, k) of the result is the operand's plus the exact sum of the
  updates' elements (e, k) over the e whose index is n (scatterAdd_rows_apply).

Both are stated for every N, E, K; the set of e summed over does not depend on K.
-/

noncomputable section

open scoped BigOperators

namespace Cert.LibSegment

open Idealize.ShloMosaic Idealize.ShloMosaic.ValueIdx

/-- The dimension numbers of the row gather: operand [N, K], start indices [E, 1], result [E, K]; the result's axis 1
    is the offset axis, the operand's axis 0 is collapsed and is the one the start index names, slices are 1 × K. -/
abbrev rowGather (N E K : ℕ)
    (wf : GatherDims.WF (⟨2, ![N, K]⟩ : Shape) ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The row the e-th start index names: the index read signed and clamped into [0, N - 1]. -/
def gRow {N E w : ℕ} (hN : 0 < N) (idx : IVec (⟨2, ![E, 1]⟩ : Shape) w) (e : Fin E) : Fin N :=
  ⟨min (idx (ix2 e (0 : Fin 1))).toInt.toNat (N - 1), by omega⟩

/-- THE ROW GATHER READ AT (e, k): the operand at row gRow e, column k. -/
theorem gather_rows_apply {α : Type} {N E K w : ℕ} (hN : 0 < N)
    (wf : GatherDims.WF (⟨2, ![N, K]⟩ : Shape) ⟨2, ![E, 1]⟩ ⟨2, ![E, K]⟩ [1] [0] [] [0] [] 1 ![1, K])
    (x : (⟨2, ![N, K]⟩ : Shape).Idx → α) (idx : IVec (⟨2, ![E, 1]⟩ : Shape) w) (e : Fin E) (k : Fin K) :
    Host.gather (rowGather N E K wf) x idx (ix2 e k) = x (ix2 (gRow hN idx e) k) := by
  unfold Host.gather
  congr 1
  have h : ∀ a : Fin 2, ((rowGather N E K wf).operandIdx (ix2 e k) idx a).val = (ix2 (gRow hN idx e) k a).val := by
    refine Fin.forall_fin_two.mpr ⟨?_, ?_⟩
    · show (rowGather N E K wf).start (ix2 e k) idx 0 + (rowGather N E K wf).batchCoord (ix2 e k) 0
        + (rowGather N E K wf).offCoord (ix2 e k) 0 = _
      rw [GatherDims.batchCoord_eq_zero _ _ _ List.not_mem_nil, Nat.add_zero, GatherDims.offCoord_eq_zero _ _ _
        (fun h => ((GatherDims.mem_sKept _ _).mp h).1 (List.mem_singleton.mpr rfl)), Nat.add_zero]
      unfold GatherDims.start
      rw [dif_pos (show (0 : Fin 2) ∈ (rowGather N E K wf).startIndexMap from List.mem_singleton.mpr rfl)]
      have hsi : (rowGather N E K wf).siIdx (ix2 e k) ⟨List.idxOf (0 : Fin 2) (rowGather N E K wf).startIndexMap,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
      rfl
    · show (rowGather N E K wf).start (ix2 e k) idx 1 + (rowGather N E K wf).batchCoord (ix2 e k) 1
        + (rowGather N E K wf).offCoord (ix2 e k) 1 = _
      rw [GatherDims.batchCoord_eq_zero _ _ _ List.not_mem_nil, Nat.add_zero]
      unfold GatherDims.start
      rw [dif_neg (show (1 : Fin 2) ∉ ([0] : List (Fin 2)) by decide), Nat.zero_add]
      rfl
  funext a
  exact Fin.ext (h a)

/-- The dimension numbers of the row scatter-add: operand [N, K], scatter indices [E, 1], updates [E, K]; the updates'
    axis 1 is the window axis, the operand's axis 0 is inserted and is the one the scatter index names. -/
abbrev rowScatter (N E K : ℕ)
    (wf : ScatterDims.WF (⟨2, ![N, K]⟩ : Shape) ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section Scatter
variable {N E K w : ℕ} (wf : ScatterDims.WF (⟨2, ![N, K]⟩ : Shape) ⟨2, ![E, 1]⟩ ⟨2, ![E, K]⟩ [1] [0] [0] 1)
  (idx : IVec (⟨2, ![E, 1]⟩ : Shape) w) (e : Fin E) (k' : Fin K)

/-- On the row axis the window of update (e, k') starts at the e-th scatter index, read signed. -/
theorem rowScatter_start0 : (rowScatter N E K wf).start (ix2 e k') idx 0 = (idx (ix2 e (0 : Fin 1))).toInt := by
  unfold ScatterDims.start
  rw [dif_pos (show (0 : Fin 2) ∈ (rowScatter N E K wf).scatterDimsToOperandDims from List.mem_singleton.mpr rfl)]
  have hsi : (rowScatter N E K wf).siIdx (ix2 e k') ⟨List.idxOf (0 : Fin 2) (rowScatter N E K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowScatter_start1 : (rowScatter N E K wf).start (ix2 e k') idx 1 = 0 := by
  unfold ScatterDims.start
  rw [dif_neg (show (1 : Fin 2) ∉ ([0] : List (Fin 2)) by decide)]

/-- On the row axis, an inserted one, the window coordinate is 0. -/
theorem rowScatter_window0 : (rowScatter N E K wf).window (ix2 e k') 0 = 0 := rfl

/-- On the column axis the window coordinate is the update's column. -/
theorem rowScatter_window1 : (rowScatter N E K wf).window (ix2 e k') 1 = k'.val := rfl

/-- Update (e, k') lands on element (n, k) exactly when the e-th scatter index, read signed, is n and k' = k. -/
theorem resultIdx?_eq_some_iff (n : Fin N) (k : Fin K) :
    (rowScatter N E K wf).resultIdx? (ix2 e k') idx = some (ix2 n k) ↔
      (idx (ix2 e (0 : Fin 1))).toInt = (n.val : ℤ) ∧ k' = k := by
  have hn : n.val < N := n.isLt
  have hk : k'.val < K := k'.isLt
  unfold ScatterDims.resultIdx?
  split
  · rename_i h
    have h0 := (h 0).1
    rw [rowScatter_start0, rowScatter_window0] at h0
    rw [Option.some.injEq]
    constructor
    · intro hf
      have e0 := congrArg (fun f => (f 0).val) hf
      have e1 := congrArg (fun f => (f 1).val) hf
      simp only [rowScatter_start0, rowScatter_window0, rowScatter_start1, rowScatter_window1] at e0 e1
      refine ⟨?_, Fin.ext ?_⟩
      · have : ((ix2 n k) 0).val = n.val := rfl
        omega
      · have : ((ix2 n k) 1).val = k.val := rfl
        omega
    · rintro ⟨h1, rfl⟩
      funext a
      refine Fin.ext ?_
      revert a
      refine Fin.forall_fin_two.mpr ⟨?_, ?_⟩
      · show ((rowScatter N E K wf).start (ix2 e k') idx 0 + (rowScatter N E K wf).window (ix2 e k') 0).toNat = n.val
        rw [rowScatter_start0, rowScatter_window0]; omega
      · show ((rowScatter N E K wf).start (ix2 e k') idx 1 + (rowScatter N E K wf).window (ix2 e k') 1).toNat = k'.val
        rw [rowScatter_start1, rowScatter_window1]; omega
  · rename_i h
    constructor
    · intro hf; exact absurd hf (by simp)
    · rintro ⟨h1, rfl⟩
      exfalso; apply h
      refine Fin.forall_fin_two.mpr ⟨?_, ?_⟩
      · rw [rowScatter_start0, rowScatter_window0]
        show 0 ≤ _ ∧ _ < (N : ℤ)
        omega
      · rw [rowScatter_start1, rowScatter_window1]
        show 0 ≤ _ ∧ _ < (K : ℤ)
        omega

end Scatter

/-- THE ROW SCATTER-ADD READ AT (n, k), at the ideal instance: the operand's element plus the exact sum of the updates'
    elements (e, k) over the e whose scatter index, read signed, is n. -/
theorem scatterAdd_rows_apply {N E K w : ℕ}
    (wf : ScatterDims.WF (⟨2, ![N, K]⟩ : Shape) ⟨2, ![E, 1]⟩ ⟨2, ![E, K]⟩ [1] [0] [0] 1)
    (x : FVec Ideal (⟨2, ![N, K]⟩ : Shape) .f32) (idx : IVec (⟨2, ![E, 1]⟩ : Shape) w)
    (upd : FVec Ideal (⟨2, ![E, K]⟩ : Shape) .f32) (n : Fin N) (k : Fin K) :
    Host.scatterAdd (F := Ideal) (rowScatter N E K wf) x idx upd (ix2 n k) =
      x (ix2 n k) + ∑ e ∈ Finset.univ.filter (fun e : Fin E => (idx (ix2 e (0 : Fin 1))).toInt = (n.val : ℤ)),
        upd (ix2 e k) := by
  show Ideal.hostScatterAdd (rowScatter N E K wf) x idx upd (ix2 n k) = _
  unfold Ideal.hostScatterAdd
  congr 1
  rw [Finset.sum_filter, Finset.sum_filter, sum_idx2]
  refine Finset.sum_congr rfl fun e _ => ?_
  by_cases he : (idx (ix2 e (0 : Fin 1))).toInt = (n.val : ℤ)
  · rw [if_pos he, Finset.sum_eq_single k]
    · rw [if_pos ((resultIdx?_eq_some_iff wf idx e k n k).mpr ⟨he, rfl⟩)]
    · intro k' _ hk'
      rw [if_neg (fun h => hk' ((resultIdx?_eq_some_iff wf idx e k' n k).mp h).2)]
    · intro h; exact absurd (Finset.mem_univ k) h
  · rw [if_neg he]
    refine Finset.sum_eq_zero fun k' _ => ?_
    rw [if_neg (fun h => he ((resultIdx?_eq_some_iff wf idx e k' n k).mp h).1)]

end Cert.LibSegment

end
-- ==== Proof.LibFinite.lean ====
/-
  Finiteness of arrays of extended reals: an array is "all real" when every entry is the image of a real
  number, that is, neither of the two infinities.

  Distributivity of multiplication over addition holds on the reals but fails on the extended reals at the
  infinities, so an argument that moves a factor across a sum first needs every array it touches to be all
  real.  This file shows that the property is preserved by every whole-array operation of a graph-convolution
  layer read on the extended reals: the elementwise product, sum and maximum, any re-indexing (a gather, a
  broadcast, a reshape), constants whose word denotes a real, the accumulating scatter, the general matrix
  product, the reciprocal square root on entries that are at least one, and the two dense maps of the
  specification.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Mathlib.Tactic
import proofs.«152917_j37847251812697_2_alg».proof.Proof.Spec

noncomputable section

namespace Cert.LibFinite

open Idealize.ShloMosaic Idealize.ShloMosaic.ValueIdx
open scoped BigOperators

/-- Every entry of the family is a real number (neither infinity). -/
def AllReal {ι : Type} (f : ι → EReal) : Prop := ∀ i, ∃ r : ℝ, f i = (r : EReal)

/-! ### Scalars -/

/-- The product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- The sum of two reals is a real. -/
theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

/-- The maximum of two reals is a real. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- A finite sum of reals is a real. -/
theorem real_sum {κ : Type} (s : Finset κ) (g : κ → EReal) (h : ∀ k ∈ s, ∃ r : ℝ, g k = (r : EReal)) :
    ∃ r : ℝ, ∑ k ∈ s, g k = (r : EReal) := by
  classical
  induction s using Finset.induction_on with
  | empty => exact ⟨0, by simp⟩
  | insert a s ha ih =>
    rw [Finset.sum_insert ha]
    exact real_add (h a (Finset.mem_insert_self a s)) (ih fun k hk => h k (Finset.mem_insert_of_mem hk))

/-! ### Elementwise operations -/

/-- The elementwise product of two all-real arrays is all real. -/
theorem AllReal.mulf {s : Shape} {x y : FVec Ideal s .f32} (hx : AllReal x) (hy : AllReal y) :
    AllReal (mulf (F := Ideal) x y) := fun i => real_mul (hx i) (hy i)

/-- The elementwise sum of two all-real arrays is all real. -/
theorem AllReal.addf {s : Shape} {x y : FVec Ideal s .f32} (hx : AllReal x) (hy : AllReal y) :
    AllReal (addf (F := Ideal) x y) := fun i => real_add (hx i) (hy i)

/-- The elementwise maximum of two all-real arrays is all real. -/
theorem AllReal.maximumf {s : Shape} {x y : FVec Ideal s .f32} (hx : AllReal x) (hy : AllReal y) :
    AllReal (maximumf (F := Ideal) x y) := fun i => real_max (hx i) (hy i)

/-! ### Re-indexings -/

/-- Reading an all-real family through any map of indices gives an all-real family. -/
theorem AllReal.comp {ι κ : Type} {f : ι → EReal} (hf : AllReal f) (g : κ → ι) : AllReal (fun j => f (g j)) :=
  fun j => hf (g j)

/-- A gather of an all-real array is all real, whatever its dimension numbers and indices. -/
theorem AllReal.gather {s si t : Shape} {w : Nat} (d : GatherDims s si t) {x : FVec Ideal s .f32} (hx : AllReal x)
    (idx : IVec si w) : AllReal (Host.gather d x idx) := fun j => hx (d.operandIdx j idx)

/-- A broadcast of an all-real array is all real. -/
theorem AllReal.broadcastInDim {s : Shape} (t : Shape) (dims : Fin s.rank → Fin t.rank) (h : s.BroadcastsInDim t dims)
    {x : FVec Ideal s .f32} (hx : AllReal x) : AllReal (broadcastInDim t dims h x) := fun _ => hx _

/-- A reshape (the same entries in row-major order under another shape) of an all-real array is all real. -/
theorem AllReal.shapeCast {s : Shape} (t : Shape) (h : s.ShapeCasts t) {x : FVec Ideal s .f32} (hx : AllReal x) :
    AllReal (shapeCast t x h) := fun j => hx (Shape.reshapeEquiv h j)

/-! ### Constants -/

/-- A constant array whose word denotes a real is all real. -/
theorem AllReal.const (s : Shape) (w : BitVec 32) (h : ∃ r : ℝ, Ideal.ofBits .f32 w = (r : EReal)) :
    AllReal (constant (F := Ideal) s .f32 w) := fun _ => h

/-- The word of the float one denotes the real one. -/
theorem ofBits_one_f32 : Ideal.ofBits .f32 0x3F800000#32 = 1 := by
  simp [Ideal.ofBits, Ideal.ieee, -EReal.coe_mul]; norm_num

/-- The all-zeros constant is all real. -/
theorem AllReal.const_zero (s : Shape) : AllReal (constant (F := Ideal) s .f32 0x00000000#32) :=
  AllReal.const s _ ⟨0, by rw [Ideal.ofBits_zero_f32]; rfl⟩

/-- The all-ones constant is all real. -/
theorem AllReal.const_one (s : Shape) : AllReal (constant (F := Ideal) s .f32 0x3F800000#32) :=
  AllReal.const s _ ⟨1, by rw [ofBits_one_f32]; rfl⟩

/-! ### Sums, the accumulating scatter, the matrix product -/

/-- A sum over a finite set of entries of an all-real family is a real. -/
theorem AllReal.sum {κ : Type} {g : κ → EReal} (hg : AllReal g) (s : Finset κ) : ∃ r : ℝ, ∑ k ∈ s, g k = (r : EReal) :=
  real_sum s g fun k _ => hg k

/-- The accumulating scatter of all-real updates into an all-real operand is all real: each entry is the
    operand's plus a finite sum of updates. -/
theorem AllReal.scatterAdd {s si u : Shape} {w : Nat} (d : ScatterDims s si u) {x : FVec Ideal s .f32} (hx : AllReal x)
    (idx : IVec si w) {upd : FVec Ideal u .f32} (hu : AllReal upd) : AllReal (Host.scatterAdd (F := Ideal) d x idx upd) :=
  fun i => real_add (hx i) (real_sum _ _ fun j _ => hu j)

/-- The general matrix product of two all-real arrays is all real: each entry is a finite sum of products. -/
theorem AllReal.dotGeneral {sl sr so : Shape} (d : DotDims sl sr so) (prec : Option ContractPrecision)
    {l : FVec Ideal sl .f32} {r : FVec Ideal sr .f32} (hl : AllReal l) (hr : AllReal r) :
    AllReal (Host.dotGeneral (F := Ideal) d prec l r) := fun j => by
  rw [show Host.dotGeneral (F := Ideal) d prec l r j = ∑ k : d.contr.Idx, l (d.lhsIdx j k) * r (d.rhsIdx j k) from
    Ideal.dotGeneral_apply d prec .single l r j]
  exact real_sum _ _ fun k _ => real_mul (hl _) (hr _)

/-! ### The reciprocal square root away from zero -/

/-- The reciprocal square root of a real that is at least one is the real \`(√r)⁻¹\`. -/
theorem rsqrt_coe_of_one_le {r : ℝ} (h : 1 ≤ r) : Ideal.rsqrt (r : EReal) = (((Real.sqrt r)⁻¹ : ℝ) : EReal) := by
  rw [Ideal.rsqrt_coe, if_neg (by linarith), if_neg (by linarith)]

/-- The elementwise reciprocal square root of an array whose entries are reals at least one is all real. -/
theorem AllReal.rsqrt {s : Shape} {y : FVec Ideal s .f32} (hy : ∀ i, ∃ r : ℝ, 1 ≤ r ∧ y i = (r : EReal)) :
    AllReal (Host.rsqrt (F := Ideal) y) := fun i => by
  obtain ⟨r, hr, hyi⟩ := hy i
  refine ⟨(Real.sqrt r)⁻¹, ?_⟩
  show Ideal.rsqrt (y i) = _
  rw [hyi, rsqrt_coe_of_one_le hr]

/-- The elementwise maximum of an all-real array with the broadcast scalar one has every entry a real that is
    at least one. -/
theorem max_one {s : Shape} (h : (⟨0, ![]⟩ : Shape).BroadcastsInDim s (![] : Fin 0 → Fin s.rank)) {y : FVec Ideal s .f32}
    (hy : AllReal y) (i : s.Idx) :
    ∃ r : ℝ, 1 ≤ r ∧ maximumf (F := Ideal) y (broadcastInDim s ![] h (constant (⟨0, ![]⟩ : Shape) .f32 0x3F800000#32)) i
      = (r : EReal) := by
  obtain ⟨a, ha⟩ := hy i
  refine ⟨max a 1, le_max_right a 1, ?_⟩
  show max (y i) (Ideal.ofBits .f32 0x3F800000#32) = _
  rw [ha, ofBits_one_f32, ← EReal.coe_one]
  exact (EReal.coe_strictMono.monotone.map_max).symm

/-- The reciprocal square root of the maximum of an all-real array with the broadcast scalar one is all real. -/
theorem AllReal.rsqrt_max_one {s : Shape} (h : (⟨0, ![]⟩ : Shape).BroadcastsInDim s (![] : Fin 0 → Fin s.rank))
    {y : FVec Ideal s .f32} (hy : AllReal y) :
    AllReal (Host.rsqrt (F := Ideal)
      (Idealize.ShloMosaic.maximumf (F := Ideal) y
        (Idealize.ShloMosaic.broadcastInDim s ![] h (constant (⟨0, ![]⟩ : Shape) .f32 0x3F800000#32)))) :=
  AllReal.rsqrt (max_one h hy)

/-! ### The two dense maps of the specification -/

/-- A dense stage (scaled rows times a weight matrix, plus a bias row, clamped at zero) of all-real arrays is all real. -/
theorem AllReal.dense {N K M : ℕ} {a : (⟨2, ![N, K]⟩ : Shape).Idx → EReal} {nd : (⟨2, ![N, 1]⟩ : Shape).Idx → EReal}
    {W : (⟨2, ![K, M]⟩ : Shape).Idx → EReal} {b : (⟨2, ![1, M]⟩ : Shape).Idx → EReal} (ha : AllReal a) (hnd : AllReal nd)
    (hW : AllReal W) (hb : AllReal b) : AllReal (Cert.Spec.dense a nd W b) := fun i =>
  real_max (real_add (real_sum _ _ fun k _ => real_mul (real_mul (ha _) (hnd _)) (hW _)) (hb _)) ⟨0, EReal.coe_zero.symm⟩

/-- A plain matrix product of all-real arrays is all real. -/
theorem AllReal.proj {N K M : ℕ} {h : (⟨2, ![N, K]⟩ : Shape).Idx → EReal} {W : (⟨2, ![K, M]⟩ : Shape).Idx → EReal}
    (hh : AllReal h) (hW : AllReal W) : AllReal (Cert.Spec.proj h W) := fun i =>
  real_sum _ _ fun k _ => real_mul (hh _) (hW _)

end Cert.LibFinite

end
-- ==== Proof.LibMoveWeight.lean ====
/-
  Moving a weight across a sum over edges.

  A node's last-layer value is a weighted sum over its incoming edges of feature rows, scaled by the node's
  own factor and then contracted with a weight column.  Because multiplication distributes over finite sums
  of real numbers, the contraction with the weight column may equally be applied to each edge's feature row
  first and the sum over edges taken afterwards.  The identity is stated on the extended reals for entries
  that are all real numbers; at the infinities distributivity fails, which is why the hypotheses are needed.
-/
import Mathlib.Tactic
import Mathlib.Data.EReal.Inv

noncomputable section

namespace Cert.LibMoveWeight

open scoped BigOperators

/-- The inclusion of the reals in the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity on the reals: contracting with \`W\` after or before the sum over the edges \`S\`. -/
theorem sum_move_weight_real {ι κ : Type} [Fintype κ] (S : Finset ι) (x : ι → κ → ℝ) (w : ι → ℝ) (d : ℝ) (W : κ → ℝ) :
    ∑ k, ((0 + ∑ e ∈ S, x e k * w e) * d) * W k = (0 + ∑ e ∈ S, (∑ k, x e k * W k) * w e) * d := by
  simp only [zero_add, Finset.sum_mul]
  rw [Finset.sum_comm]
  exact Finset.sum_congr rfl fun e _ => Finset.sum_congr rfl fun k _ => by ring

/-- On extended reals that are all real numbers, the weight column \`W\` may be applied after the sum over the
    edges \`S\` (left) or to each edge's row before it (right). -/
theorem sum_move_weight {ι κ : Type} [Fintype κ] (S : Finset ι) (x : ι → κ → EReal) (w : ι → EReal) (dn : EReal)
    (W : κ → EReal) (hx : ∀ e k, ∃ r : ℝ, x e k = (r : EReal)) (hw : ∀ e, ∃ r : ℝ, w e = (r : EReal))
    (hd : ∃ r : ℝ, dn = (r : EReal)) (hW : ∀ k, ∃ r : ℝ, W k = (r : EReal)) :
    ∑ k, ((0 + ∑ e ∈ S, x e k * w e) * dn) * W k = (0 + ∑ e ∈ S, (∑ k, x e k * W k) * w e) * dn := by
  choose xr hxr using hx
  choose wr hwr using hw
  choose Wr hWr using hW
  obtain ⟨d, rfl⟩ := hd
  simp only [hxr, hwr, hWr]
  have key := congrArg (fun r : ℝ => (r : EReal)) (sum_move_weight_real S xr wr d Wr)
  simp only [coe_finset_sum, EReal.coe_mul, EReal.coe_add, EReal.coe_zero] at key
  exact key

end Cert.LibMoveWeight

end
-- ==== Proof.LastLayer.lean ====
/-
  The last layer: the weight column applied before or after the sum over edges.

  The reference aggregates the 128-wide rows of the third layer's output over each node's incoming edges,
  scales the aggregate by the node's destination factor and only then contracts it with the weight column.
  The kernel program contracts every row with the weight column first and aggregates the resulting one-wide
  rows.  At node n both are (the node's aggregate) · nd n + b, and the two aggregates agree because, on real
  numbers, ∑ₖ (∑_{e→n} y[src e, k] · w e) · nd n · W k = (∑_{e→n} (∑ₖ y[src e, k] · W k) · w e) · nd n:
  multiplication distributes over the finite sums.  The sum over the edges into n is over the same set of
  edges on both sides, each edge's row is read at the same (wrapped and clamped) source, and the edge factor
  w e is the same entry of the same gathered vector.
-/
import proofs.«152917_j37847251812697_2_alg».proof.Proof.Net
import proofs.«152917_j37847251812697_2_alg».proof.Proof.RNet
import proofs.«152917_j37847251812697_2_alg».proof.Proof.Spec
import proofs.«152917_j37847251812697_2_alg».proof.Proof.LibSegment
import proofs.«152917_j37847251812697_2_alg».proof.Proof.LibPlainDot
import proofs.«152917_j37847251812697_2_alg».proof.Proof.LibColumn
import proofs.«152917_j37847251812697_2_alg».proof.Proof.LibFinite
import proofs.«152917_j37847251812697_2_alg».proof.Proof.LibMoveWeight
import proofs.«152917_j37847251812697_2_alg».proof.Proof.RefLayers

noncomputable section

namespace Cert.LastLayer

open Idealize.ShloMosaic Idealize.ShloMosaic.ValueIdx Cert.LibFinite Cert.LibSegment Cert.ReferenceIdeal.Layers
open scoped BigOperators

/-- The edges whose destination, read signed off the one-column table \`idx\`, is node \`n\`. -/
abbrev edgesInto (idx : IVec (⟨2, ![400000, 1]⟩ : Shape) 32) (n : Fin 100000) : Finset (Fin 400000) :=
  Finset.univ.filter (fun e : Fin 400000 => (idx (ix2 e (0 : Fin 1))).toInt = (n.val : ℤ))

/-- The node a row gather reads for edge \`e\`: its wrapped source, clamped into the rows. -/
abbrev srcRow (x1 : IVec Cert.KernelIdeal.S400000 32) (e : Fin 400000) : Fin 100000 :=
  gRow (N := 100000) (by norm_num) (Cert.Net.wrapIdx (F := Ideal) x1) e

/-! ### Broadcast reads -/

/-- A vector of length m (not one) spread to a one-column matrix reads, at (p, 0), its entry p. -/
theorem col1_apply {α : Type} {m : ℕ} (hm : m ≠ 1)
    (h : (⟨1, ![m]⟩ : Shape).BroadcastsInDim ⟨2, ![m, 1]⟩ (![0] : Fin 1 → Fin 2))
    (v : (⟨1, ![m]⟩ : Shape).Idx → α) (p : Fin m) :
    broadcastInDim ⟨2, ![m, 1]⟩ ![0] h v (ix2 p (0 : Fin 1)) = v (ix1 p) :=
  broadcastInDim_apply _ h v (ix2 p (0 : Fin 1)) (ix1 p) (fun a => match a with
    | ⟨0, _⟩ => by show p.val = if m = 1 then 0 else p.val; rw [if_neg hm])

/-- A one-by-one matrix spread down a column reads its only entry everywhere. -/
theorem one_bcast_apply {α : Type} (h : (⟨2, ![1, 1]⟩ : Shape).BroadcastsInDim ⟨2, ![100000, 1]⟩ (![0, 1] : Fin 2 → Fin 2))
    (v : (⟨2, ![1, 1]⟩ : Shape).Idx → α) (n : Fin 100000) :
    broadcastInDim ⟨2, ![100000, 1]⟩ ![0, 1] h v (ix2 n (0 : Fin 1)) = v (ix2 (0 : Fin 1) (0 : Fin 1)) :=
  broadcastInDim_apply _ h v (ix2 n (0 : Fin 1)) (ix2 (0 : Fin 1) (0 : Fin 1)) (fun a => match a with
    | ⟨0, _⟩ => by show 0 = if (1 : Nat) = 1 then 0 else n.val; rw [if_pos rfl]
    | ⟨1, _⟩ => by show 0 = if (1 : Nat) = 1 then 0 else 0; rw [if_pos rfl])

/-- A one-entry vector made a one-by-one matrix by a broadcast reads the entry. -/
theorem one_one_bcast_apply {α : Type} (h : (⟨1, ![1]⟩ : Shape).BroadcastsInDim ⟨2, ![1, 1]⟩ (![1] : Fin 1 → Fin 2))
    (v : (⟨1, ![1]⟩ : Shape).Idx → α) :
    broadcastInDim ⟨2, ![1, 1]⟩ ![1] h v (ix2 (0 : Fin 1) (0 : Fin 1)) = v (ix1 (0 : Fin 1)) :=
  broadcastInDim_apply _ h v (ix2 (0 : Fin 1) (0 : Fin 1)) (ix1 (0 : Fin 1)) (fun a => match a with
    | ⟨0, _⟩ => by show 0 = if (1 : Nat) = 1 then 0 else 0; rw [if_pos rfl])

/-! ### The two programs' last layers read at a node -/

/-- The kernel program's last layer at node n: the aggregate over the edges into n of the one-wide rows, each
    scaled by its edge factor, times the destination factor, plus the bias. -/
theorem net_out4_apply (x1 x2 : IVec Cert.KernelIdeal.S400000 32) (ns nd : FVec Ideal Cert.KernelIdeal.S100000 .f32)
    (b4 : FVec Ideal Cert.KernelIdeal.S1 .f32) (z : FVec Ideal Cert.KernelIdeal.S100000x1 .f32) (n : Fin 100000) :
    Cert.Net.out4 (F := Ideal) x1 x2 ns nd b4 z (ix2 n (0 : Fin 1))
      = (0 + ∑ e ∈ edgesInto (Cert.Net.colIdx (F := Ideal) x2) n,
          z (ix2 (srcRow x1 e) (0 : Fin 1)) * Cert.Net.edgeW (F := Ideal) x1 ns (ix1 e)) * nd (ix1 n)
        + b4 (ix1 (0 : Fin 1)) := by
  show Cert.Net.agg1 (F := Ideal) x1 x2 ns z (ix2 n (0 : Fin 1)) * _ + _ = _
  refine congr (congrArg HAdd.hAdd (congr (congrArg HMul.hMul ?_) (col1_apply (m := 100000) (by norm_num) _ nd n)))
    ((one_bcast_apply _ _ n).trans (Cert.LibColumn.shapeCast_a_a1_apply (a := 1) b4 _ (0 : Fin 1) (0 : Fin 1)))
  refine (scatterAdd_rows_apply (N := 100000) (E := 400000) (K := 1) (by decide) _ _ _ n (0 : Fin 1)).trans ?_
  refine congr (congrArg HAdd.hAdd (zero_bcast_apply _ _)) (Finset.sum_congr rfl fun e _ => ?_)
  exact congr (congrArg HMul.hMul
      (gather_rows_apply (N := 100000) (E := 400000) (K := 1) (by norm_num) (by decide) z _ e (0 : Fin 1)))
    (col1_apply (m := 400000) (by norm_num) _ _ e)

/-- The reference's last layer at node n: the contraction with the weight column of the aggregate over the
    edges into n of the 128-wide rows, each scaled by its edge factor, times the destination factor; plus the bias. -/
theorem rnet_out4_apply (x1 x2 : IVec Cert.KernelIdeal.S400000 32) (ns nd : FVec Ideal Cert.KernelIdeal.S100000 .f32)
    (b4 : FVec Ideal Cert.KernelIdeal.S1 .f32) (W4 : FVec Ideal Cert.KernelIdeal.S128x1 .f32)
    (y3 : FVec Ideal Cert.KernelIdeal.S100000x128 .f32) (n : Fin 100000) :
    Cert.RNet.out4 (F := Ideal) x1 x2 ns nd b4 W4 y3 (ix2 n (0 : Fin 1))
      = (∑ k : Fin 128, ((0 + ∑ e ∈ edgesInto (Cert.Net.colIdx (F := Ideal) x2) n,
          y3 (ix2 (srcRow x1 e) k) * Cert.Net.edgeW (F := Ideal) x1 ns (ix1 e)) * nd (ix1 n)) * W4 (ix2 k (0 : Fin 1)))
        + b4 (ix1 (0 : Fin 1)) := by
  show Host.dotGeneral (F := Ideal) (DotDims.plain 100000 128 1) none _ W4 (ix2 n (0 : Fin 1)) + _ = _
  refine congr (congrArg HAdd.hAdd ?_) ((one_bcast_apply _ _ n).trans (one_one_bcast_apply _ b4))
  refine (Cert.LibPlainDot.dotGeneral_plain 100000 128 1 none _ W4 (ix2 n (0 : Fin 1))).trans ?_
  refine Finset.sum_congr rfl fun k _ => ?_
  refine congrArg (· * W4 (ix2 k (0 : Fin 1))) ?_
  show Cert.RNet.agg128 (F := Ideal) x1 x2 ns y3 (ix2 n k) * _ = _
  refine congr (congrArg HMul.hMul ?_) (col_bcast_apply (n := 100000) (c := 128) (by norm_num) _ _ nd n k)
  refine (scatterAdd_rows_apply (N := 100000) (E := 400000) (K := 128) (by decide) _ _ _ n k).trans ?_
  refine congr (congrArg HAdd.hAdd (zero_bcast_apply _ _)) (Finset.sum_congr rfl fun e _ => ?_)
  exact congr (congrArg HMul.hMul
      (gather_rows_apply (N := 100000) (E := 400000) (K := 128) (by norm_num) (by decide) y3 _ e k))
    (col_bcast_apply (n := 400000) (c := 128) (by norm_num) _ _ _ e k)

/-! ### The two agree -/

/-- On all-real arrays the kernel program's last layer, fed the rows already contracted with the weight column,
    is the reference's last layer. -/
theorem out4_eq (x1 x2 : (⟨Cert.KernelIdeal.S400000, .i32⟩ : BufTy).Contents (Elt Ideal))
    (ns nd : (⟨Cert.KernelIdeal.S100000, .f32⟩ : BufTy).Contents (Elt Ideal))
    (b4 : (⟨Cert.KernelIdeal.S1, .f32⟩ : BufTy).Contents (Elt Ideal))
    (W4 : (⟨Cert.KernelIdeal.S128x1, .f32⟩ : BufTy).Contents (Elt Ideal))
    (y3 : (⟨Cert.KernelIdeal.S100000x128, .f32⟩ : BufTy).Contents (Elt Ideal))
    (hy : AllReal y3) (hns : AllReal ns) (hnd : AllReal nd) (hW : AllReal W4) :
    Cert.Net.out4 (F := Ideal) x1 x2 ns nd b4 (Cert.Spec.proj (N := 100000) (K := 128) (M := 1) y3 W4)
      = Cert.RNet.out4 (F := Ideal) x1 x2 ns nd b4 W4 y3 := by
  funext i
  obtain ⟨n, q, rfl⟩ : ∃ (n : Fin 100000) (q : Fin 1), i = ix2 n q := ⟨i 0, i 1, eq_ix2 i⟩
  obtain rfl : q = 0 := Subsingleton.elim _ _
  refine (net_out4_apply x1 x2 ns nd b4 _ n).trans
    ((congrArg (· + b4 (ix1 (0 : Fin 1))) ?_).trans (rnet_out4_apply x1 x2 ns nd b4 W4 y3 n).symm)
  exact (Cert.LibMoveWeight.sum_move_weight (edgesInto (Cert.Net.colIdx (F := Ideal) x2) n)
    (fun e k => y3 (ix2 (srcRow x1 e) k)) (fun e => Cert.Net.edgeW (F := Ideal) x1 ns (ix1 e)) (nd (ix1 n))
    (fun k => W4 (ix2 k (0 : Fin 1))) (fun e k => hy _) (fun e => AllReal.gather _ hns _ (ix1 e)) (hnd _)
    (fun k => hW _)).symm

end Cert.LastLayer

end
-- ==== Proof.NetFinite.lean ====
/-
  Every array the host side computes from finite arrays is finite.

  A degree factor is the reciprocal square root of an edge count clamped below at one, so it is a real number.
  A gather only picks entries; a broadcast and a reshape only repeat or re-read them; a product of two reals
  is a real; and a scatter-add into zeros leaves, at every entry, a finite sum of entries of the updates.
  So the edge factors, the three edge aggregations and the column and row forms of a vector are all real
  whenever the arrays they are computed from are.
-/
import proofs.«152917_j37847251812697_2_alg».proof.Proof.Net
import proofs.«152917_j37847251812697_2_alg».proof.Proof.LibFinite

noncomputable section

namespace Cert.Net.Finite

open Cert.KernelIdeal Cert.KernelIdeal.Facts₀ Idealize.ShloMosaic Cert.LibFinite

/-- The degree factors are real: each is the reciprocal square root of a count that is at least one. -/
theorem nrm (s : (⟨S400000, .i32⟩ : BufTy).Contents (Elt Ideal)) : AllReal (Cert.Net.nrm (F := Ideal) s) := by
  unfold Cert.Net.nrm
  exact AllReal.rsqrt_max_one _
    (AllReal.scatterAdd _ (AllReal.broadcastInDim _ _ _ (AllReal.const_zero _)) _
      (AllReal.broadcastInDim _ _ _ (AllReal.const_one _)))

/-- The edge factors are entries of the node factors. -/
theorem edgeW (src : (⟨S400000, .i32⟩ : BufTy).Contents (Elt Ideal)) {ns : (⟨S100000, .f32⟩ : BufTy).Contents (Elt Ideal)}
    (h : AllReal ns) : AllReal (Cert.Net.edgeW (F := Ideal) src ns) := by
  unfold Cert.Net.edgeW
  exact AllReal.gather _ h _

/-- The aggregation of 16-wide rows: finite sums of products of gathered entries and edge factors. -/
theorem agg16 (src dst : (⟨S400000, .i32⟩ : BufTy).Contents (Elt Ideal)) {ns : (⟨S100000, .f32⟩ : BufTy).Contents (Elt Ideal)}
    {x : (⟨S100000x16, .f32⟩ : BufTy).Contents (Elt Ideal)} (hns : AllReal ns) (hx : AllReal x) :
    AllReal (Cert.Net.agg16 (F := Ideal) src dst ns x) := by
  unfold Cert.Net.agg16
  exact AllReal.scatterAdd _ (AllReal.broadcastInDim _ _ _ (AllReal.const_zero _)) _
    (AllReal.mulf (AllReal.gather _ hx _)
      (AllReal.broadcastInDim _ _ _ (AllReal.broadcastInDim _ _ _ (Cert.Net.Finite.edgeW src hns))))

/-- The aggregation of 128-wide rows. -/
theorem agg128 (src dst : (⟨S400000, .i32⟩ : BufTy).Contents (Elt Ideal)) {ns : (⟨S100000, .f32⟩ : BufTy).Contents (Elt Ideal)}
    {x : (⟨S100000x128, .f32⟩ : BufTy).Contents (Elt Ideal)} (hns : AllReal ns) (hx : AllReal x) :
    AllReal (Cert.Net.agg128 (F := Ideal) src dst ns x) := by
  unfold Cert.Net.agg128
  exact AllReal.scatterAdd _ (AllReal.broadcastInDim _ _ _ (AllReal.const_zero _)) _
    (AllReal.mulf (AllReal.gather _ hx _)
      (AllReal.broadcastInDim _ _ _ (AllReal.broadcastInDim _ _ _ (Cert.Net.Finite.edgeW src hns))))

/-- The aggregation of one-wide rows. -/
theorem agg1 (src dst : (⟨S400000, .i32⟩ : BufTy).Contents (Elt Ideal)) {ns : (⟨S100000, .f32⟩ : BufTy).Contents (Elt Ideal)}
    {x : (⟨S100000x1, .f32⟩ : BufTy).Contents (Elt Ideal)} (hns : AllReal ns) (hx : AllReal x) :
    AllReal (Cert.Net.agg1 (F := Ideal) src dst ns x) := by
  unfold Cert.Net.agg1
  exact AllReal.scatterAdd _ (AllReal.broadcastInDim _ _ _ (AllReal.const_zero _)) _
    (AllReal.mulf (AllReal.gather _ hx _) (AllReal.broadcastInDim _ _ _ (Cert.Net.Finite.edgeW src hns)))

/-- A vector read as a one-column matrix has the same entries. -/
theorem kcol {v : (⟨S100000, .f32⟩ : BufTy).Contents (Elt Ideal)} (h : AllReal v) : AllReal (Cert.Net.kcol (F := Ideal) v) := by
  unfold Cert.Net.kcol
  exact AllReal.shapeCast _ _ h

/-- A vector read as a one-row matrix has the same entries. -/
theorem krow {b : (⟨S128, .f32⟩ : BufTy).Contents (Elt Ideal)} (h : AllReal b) : AllReal (Cert.Net.krow (F := Ideal) b) := by
  unfold Cert.Net.krow
  exact AllReal.shapeCast _ _ h

end Cert.Net.Finite

end
-- ==== Proof.Bridge.lean ====
/-
  The two idealized programs compute the same function of finite arguments.

  The kernel program's result is `Net.knet` of its arguments (the run read back, stage by stage); the reference's
  result is the pooling of its last layer over its third layer's output.  The first three layers agree stage by stage
  as arrays.  The last layer is where the programs differ: the reference aggregates the 128-wide rows and then
  multiplies by the weight column, the kernel program multiplies first and aggregates one-wide rows; the two
  agree because every array involved is finite — the arguments by the precondition, every later array because
  sums, products, clamps and reciprocal square roots of counts keep entries real — and on real numbers
  multiplication distributes over the finite sum over a node's incoming edges.
-/
import proofs.«152917_j37847251812697_2_alg».proof.Proof.RefNet
import proofs.«152917_j37847251812697_2_alg».proof.Proof.LastLayer
import proofs.«152917_j37847251812697_2_alg».proof.Proof.NetFinite

noncomputable section

namespace Cert.Bridge

open Cert.LibFinite Idealize.ShloMosaic
open Cert.ReferenceIdeal (S100000x16 S400000 S100000 S16x128 S128 S128x128 S128x1 S1 S100000x128)

/-- The first layer's output is finite. -/
theorem y1_real {x0 : (⟨S100000x16, .f32⟩ : BufTy).Contents (Elt Ideal)} (x1 x2 : (⟨S400000, .i32⟩ : BufTy).Contents (Elt Ideal))
    {x4 : (⟨S16x128, .f32⟩ : BufTy).Contents (Elt Ideal)} {x5 : (⟨S128, .f32⟩ : BufTy).Contents (Elt Ideal)}
    (h0 : AllReal x0) (h4 : AllReal x4) (h5 : AllReal x5) : AllReal (Cert.Net.y1 x0 x1 x2 x4 x5) :=
  AllReal.dense (Cert.Net.Finite.agg16 x1 x2 (Cert.Net.Finite.nrm x1) h0) (Cert.Net.Finite.kcol (Cert.Net.Finite.nrm x2)) h4
    (Cert.Net.Finite.krow h5)

/-- A later layer's output is finite when the previous one's is. -/
theorem ynext_real (x1 x2 : (⟨S400000, .i32⟩ : BufTy).Contents (Elt Ideal)) {y : (⟨S100000x128, .f32⟩ : BufTy).Contents (Elt Ideal)}
    {W : (⟨S128x128, .f32⟩ : BufTy).Contents (Elt Ideal)} {b : (⟨S128, .f32⟩ : BufTy).Contents (Elt Ideal)}
    (hy : AllReal y) (hW : AllReal W) (hb : AllReal b) : AllReal (Cert.Net.ynext x1 x2 y W b) :=
  AllReal.dense (Cert.Net.Finite.agg128 x1 x2 (Cert.Net.Finite.nrm x1) hy) (Cert.Net.Finite.kcol (Cert.Net.Finite.nrm x2)) hW
    (Cert.Net.Finite.krow hb)

/-- On finite arguments the reference's result is the kernel-side function. -/
theorem ref_eq_knet (x0 : (⟨S100000x16, .f32⟩ : BufTy).Contents (Elt Ideal)) (x1 x2 : (⟨S400000, .i32⟩ : BufTy).Contents (Elt Ideal))
    (x3 : (⟨S100000, .i32⟩ : BufTy).Contents (Elt Ideal))
    (x4 : (⟨S16x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x1, .f32⟩ : BufTy).Contents (Elt Ideal)) (x11 : (⟨S1, .f32⟩ : BufTy).Contents (Elt Ideal))
    (h0 : AllReal x0) (h4 : AllReal x4) (h5 : AllReal x5) (h6 : AllReal x6) (h7 : AllReal x7) (h8 : AllReal x8) (h9 : AllReal x9)
    (h10 : AllReal x10) :
    Cert.ReferenceIdeal.Read.val_main_v134 (F := Ideal) x0 x1 x2 x3 x4 x5 x6 x7 x8 x9 x10 x11
      = Cert.Net.knet x0 x1 x2 x3 x4 x5 x6 x7 x8 x9 x10 x11 := by
  rw [Cert.ReferenceIdeal.RefNet.ref_out, Cert.ReferenceIdeal.RefNet.ref_y3, Cert.ReferenceIdeal.RefNet.ref_y2,
    Cert.ReferenceIdeal.RefNet.ref_y1]
  rw [← Cert.LastLayer.out4_eq x1 x2 (Cert.Net.nrm (F := Ideal) x1) (Cert.Net.nrm (F := Ideal) x2) x11 x10 _
    (ynext_real x1 x2 (ynext_real x1 x2 (y1_real x1 x2 h0 h4 h5) h6 h7) h8 h9) (Cert.Net.Finite.nrm x1) (Cert.Net.Finite.nrm x2) h10]
  rfl

end Cert.Bridge

end
-- ==== Proof.PreFinite.lean ====
/-
  The precondition read back: when the input predicate "every entry of every float argument has absolute
  value below +∞" evaluates to true, every float argument is all real.

  The predicate is a conjunction, one conjunct per float argument, of a reduction by "and" over the whole
  array of the elementwise comparison |x| < +∞.  On the extended reals |x| = max x (-x) is below the top
  element exactly when x is neither infinity, that is, when x is a real number.
-/
import Idealize.ShloMosaic.Lib.ReduceAll
import proofs.«152917_j37847251812697_2_alg».proof.Pre_finite_inputs
import proofs.«152917_j37847251812697_2_alg».proof.Proof.LibFinite

noncomputable section

namespace Cert.PreFinite

open Idealize.ShloMosaic Idealize.ShloMosaic.ValueIdx Cert.LibFinite Cert.Pre_finite_inputs

/-- The shape of rank zero has a single index. -/
instance : Subsingleton S_.Idx := ⟨fun a b => funext fun d => d.elim0⟩

/-- An extended real whose absolute value is below +∞ is a real number. -/
theorem real_of_abs_lt_top (x : EReal)
    (e : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at e
  induction x using EReal.rec with
  | bot => simp [Ideal.cmp] at e
  | coe r => exact ⟨r, rfl⟩
  | top => simp [Ideal.cmp] at e

/-- One conjunct of the predicate: if the reduction by "and" of the comparison |x| < +∞ over the whole array is
    true, the array is all real. -/
theorem allReal_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
        (cmpf .olt (Host.absf (F := Ideal) x) (broadcastInDim s ![] hb (constant (F := Ideal) S_ .f32 0x7F800000#32)))
        (constantI S_ 1 1#1) hr hu ix0 = 1#1) : AllReal x := fun i =>
  real_of_abs_lt_top (x i) (Host.reduce_andi_all _ _ hr hu ix0 e i)

variable [Facts]

/-- The precondition decoded: if the input predicate is true, each of the nine float arguments is all real. -/
theorem allReal (x0 : FVec Ideal S100000x16 .f32) (x1 : IVec S400000 32) (x2 : IVec S400000 32) (x3 : IVec S100000 32)
    (x4 : FVec Ideal S16x128 .f32) (x5 : FVec Ideal S128 .f32) (x6 : FVec Ideal S128x128 .f32) (x7 : FVec Ideal S128 .f32)
    (x8 : FVec Ideal S128x128 .f32) (x9 : FVec Ideal S128 .f32) (x10 : FVec Ideal S128x1 .f32) (x11 : FVec Ideal S1 .f32)
    (h : fn (F := Ideal) x0 x1 x2 x3 x4 x5 x6 x7 x8 x9 x10 x11 = fun _ => 1#1) :
    AllReal x0 ∧ AllReal x4 ∧ AllReal x5 ∧ AllReal x6 ∧ AllReal x7 ∧ AllReal x8 ∧ AllReal x9 ∧ AllReal x10 ∧ AllReal x11 := by
  have h0 := congrFun h ix0
  dsimp only [fn, fn_part1, fn_part2, andi] at h0
  simp only [IntOp.andi_eq_one] at h0
  obtain ⟨⟨⟨⟨⟨⟨⟨⟨e0, e4⟩, e5⟩, e6⟩, e7⟩, e8⟩, e9⟩, e10⟩, e11⟩ := h0
  exact ⟨allReal_of_all _ _ _ x0 e0, allReal_of_all _ _ _ x4 e4, allReal_of_all _ _ _ x5 e5, allReal_of_all _ _ _ x6 e6,
    allReal_of_all _ _ _ x7 e7, allReal_of_all _ _ _ x8 e8, allReal_of_all _ _ _ x9 e9, allReal_of_all _ _ _ x10 e10,
    allReal_of_all _ _ _ x11 e11⟩

end Cert.PreFinite

end
-- ==== Proof.lean ====
/-
  The certificate of a four-layer graph convolution network with per-graph mean pooling: its tiled program against its
  plain reference, on the extended reals.

  Each layer aggregates node rows over the edges (gather the source rows, scale by the source's degree factor,
  scatter-add onto the destinations), scales by the destination's degree factor, multiplies by a weight matrix and adds a
  bias; the first three layers clamp at zero.  The tiled program computes the dense part of the first three layers in
  row blocks of 5000 nodes, and applies the FOURTH layer's weight column to the third layer's rows before the fourth
  aggregation, aggregating one number per node instead of 128.  Both programs are the same function of finite arguments
  (Proof/Bridge.lean): the first three layers stage by stage, the fourth by distributing the weight column over the
  finite sum of a node's incoming edges, which needs every entry to be a real number — hence the precondition.

  The three frames are the generated ones (the reference's is its run with the result dropped); the ideal pass
  rewrote nothing, so `preserves` is trivial; `algebraic` puts the kernel program's run with its result named
  (Proof/KernelRun.lean, Proof/KernelChain.lean) beside the reference's run.
-/
import proofs.«152917_j37847251812697_2_alg».proof.Defs
import proofs.«152917_j37847251812697_2_alg».proof.Proof.Gen.Kernel
import proofs.«152917_j37847251812697_2_alg».proof.Proof.Gen.Kernel.Skeleton
import proofs.«152917_j37847251812697_2_alg».proof.Proof.Gen.Kernel.Launch
import proofs.«152917_j37847251812697_2_alg».proof.Proof.Gen.Kernel.Points
import proofs.«152917_j37847251812697_2_alg».proof.Proof.Gen.Kernel.Frame
import proofs.«152917_j37847251812697_2_alg».proof.Proof.Gen.KernelIdeal
import proofs.«152917_j37847251812697_2_alg».proof.Proof.Gen.KernelIdeal.Skeleton
import proofs.«152917_j37847251812697_2_alg».proof.Proof.Gen.KernelIdeal.Launch
import proofs.«152917_j37847251812697_2_alg».proof.Proof.Gen.KernelIdeal.Points
import proofs.«152917_j37847251812697_2_alg».proof.Proof.Gen.KernelIdeal.Frame
import proofs.«152917_j37847251812697_2_alg».proof.Proof.Gen.ReferenceIdeal
import proofs.«152917_j37847251812697_2_alg».proof.Proof.Gen.ReferenceIdeal.Run
import proofs.«152917_j37847251812697_2_alg».proof.Proof.Gen.ReferenceIdeal.Read
import proofs.«152917_j37847251812697_2_alg».proof.Proof.Gen.Pre_finite_inputs
import proofs.«152917_j37847251812697_2_alg».proof.Proof.KernelRun
import proofs.«152917_j37847251812697_2_alg».proof.Proof.KernelChain
import proofs.«152917_j37847251812697_2_alg».proof.Proof.Bridge
import proofs.«152917_j37847251812697_2_alg».proof.Proof.PreFinite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end at the kernel-side function of the (agreeing, finite) arguments. -/
theorem algebraic : Cert.algebraic_KernelIdeal_ReferenceIdeal := by
  intro m ρ m' ρ' hpre hagree
  refine ⟨fun c => Cert.Net.knet (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.value m ρ c), (h c).2⟩) (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    obtain ⟨h0, h4, h5, h6, h7, h8, h9, h10, -⟩ := Cert.PreFinite.allReal _ _ _ _ _ _ _ _ _ _ _ _ (hpre c)
    rw [Cert.ReferenceIdeal.Read.val_main_v134_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact Cert.Bridge.ref_eq_knet _ _ _ _ _ _ _ _ _ _ _ _ h0 h4 h5 h6 h7 h8 h9 h10

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
